-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg6 : FVec F S64 .f32) (main_arg7 : FVec F S64x24 .f32) (main_arg8 : FVec F S24 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x24 .f32 := Host.absf main_arg7
  let main_cst_8 : FVec F S_ .f32 := constant S_ .f32 0x7F800000#32
  let main_v25 : FVec F S64x24 .f32 := broadcastInDim S64x24 ![] bcast_S_S64x24 main_cst_8
  let main_v26 : IVec S64x24 1 := cmpf .olt main_v24 main_v25
  let main_c_9 : IVec S_ 1 := constantI S_ 1 1#1
  let main_v27 : IVec S_ 1 := (fun x v => Host.reduce IntOp.andi x v reducesTo_S64x24_S_d0_1 h_S_) main_v26 main_c_9
  let main_v28 : IVec S_ 1 := andi main_v23 main_v27
  let main_v29 : FVec F S24 .f32 := Host.absf main_arg8
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x64 .f32) (main_arg6 : FVec F S64 .f32) (main_arg7 : FVec F S64x24 .f32) (main_arg8 : FVec F S24 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x3 : Shape := ⟨2, ![5000, 3]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S100000x24 : Shape := ⟨2, ![100000, 24]⟩
abbrev S5000x24 : Shape := ⟨2, ![5000, 24]⟩
abbrev S1700000x24 : Shape := ⟨2, ![1700000, 24]⟩
abbrev S1x24 : Shape := ⟨2, ![1, 24]⟩
abbrev S64x1 : Shape := ⟨2, ![64, 1]⟩

abbrev nBuf : Space → Nat
  | .hbm => 94
  | .vmem => 30
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x64, .bf16⟩
  | .hbm, ⟨41, _⟩ => ⟨S1700000x64, .f32⟩
  | .hbm, ⟨42, _⟩ => ⟨S_, .f32⟩
  | .hbm, ⟨43, _⟩ => ⟨S100000x64, .f32⟩
  | .hbm, ⟨44, _⟩ => ⟨S1700000x1, .i32⟩
  | .hbm, ⟨45, _⟩ => ⟨S100000x64, .f32⟩
  | .hbm, ⟨46, _⟩ => ⟨S100000x64, .bf16⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .bf16⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S100000x24, .bf16⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x24, .bf16⟩
  | .hbm, ⟨71, _⟩ => ⟨S1700000x24, .f32⟩
  | .hbm, ⟨72, _⟩ => ⟨S_, .f32⟩
  | .hbm, ⟨73, _⟩ => ⟨S100000x24, .f32⟩
  | .hbm, ⟨74, _⟩ => ⟨S1700000x1, .i32⟩
  | .hbm, ⟨75, _⟩ => ⟨S100000x24, .f32⟩
  | .hbm, ⟨76, _⟩ => ⟨S100000x24, .f32⟩
  | .hbm, ⟨77, _⟩ => ⟨S_, .f32⟩
  | .hbm, ⟨78, _⟩ => ⟨S64x24, .f32⟩
  | .hbm, ⟨79, _⟩ => ⟨S100000x1, .i32⟩
  | .hbm, ⟨80, _⟩ => ⟨S64x24, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S64, .f32⟩
  | .hbm, ⟨85, _⟩ => ⟨S100000x1, .i32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64x1, .f32⟩
  | .hbm, ⟨91, _⟩ => ⟨S64x24, .f32⟩
  | .hbm, ⟨92, _⟩ => ⟨S64x24, .f32⟩
  | .hbm, ⟨93, _⟩ => ⟨S64x24, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S64, .f32⟩
  | .local _ .vmem, ⟨20, _⟩ => ⟨S64x24, .f32⟩
  | .local _ .vmem, ⟨21, _⟩ => ⟨S5000x24, .bf16⟩
  | .local _ .vmem, ⟨22, _⟩ => ⟨S5000x24, .bf16⟩
  | .local _ .vmem, ⟨23, _⟩ => ⟨S5000x24, .f32⟩
  | .local _ .vmem, ⟨24, _⟩ => ⟨S5000x24, .f32⟩
  | .local _ .vmem, ⟨25, _⟩ => ⟨S5000x1, .f32⟩
  | .local _ .vmem, ⟨26, _⟩ => ⟨S5000x1, .f32⟩
  | .local _ .vmem, ⟨27, _⟩ => ⟨S24, .f32⟩
  | .local _ .vmem, ⟨28, _⟩ => ⟨S5000x24, .f32⟩
  | .local _ .vmem, ⟨29, _⟩ => ⟨S5000x24, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x24 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x24 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x24 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x24 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x24_S64x24_0_0 : ∀ a, (![0, 0] : Fin 2 → Nat) a + S64x24.size a ≤ S64x24.size a
  h_S64x24 : 0 < S64x24.numel
  broadcasts_S5000x1_S5000x24 : S5000x1.Broadcasts S5000x24
  inb_S5000x24_S5000x24_0_0 : ∀ a, (![0, 0] : Fin 2 → Nat) a + S5000x24.size a ≤ S5000x24.size a
  h_S5000x24 : 0 < S5000x24.numel
  packedbf16_S5000x24_S5000x24_0_0 : (Rect.unit (s := S5000x24) ![0, 0] S5000x24.size inb_S5000x24_S5000x24_0_0).PackedRows (EltTy.packing .bf16)
  bcast_S_S100000x24 : S_.BroadcastsInDim S100000x24 (![] : Fin 0 → Fin S100000x24.rank)
  shapeCasts_S5000x24_S5000x24 : S5000x24.ShapeCasts S5000x24
  inb_S24_S24_0 : ∀ a, (![0] : Fin 1 → Nat) a + S24.size a ≤ S24.size a
  h_S24 : 0 < S24.numel
  shapeCasts_S24_S1x24 : S24.ShapeCasts S1x24
  broadcasts_S1x24_S5000x24 : S1x24.Broadcasts S5000x24
  bcast_S_S64x24 : S_.BroadcastsInDim S64x24 (![] : Fin 0 → Fin S64x24.rank)
  bcast_S_S64 : S_.BroadcastsInDim S64 (![] : Fin 0 → Fin S64.rank)
  bcast_S64_S64x1_0 : S64.BroadcastsInDim S64x1 (![0] : Fin 1 → Fin S64x1.rank)
  bcast_S64x1_S64x24_0_1 : S64x1.BroadcastsInDim S64x24 (![0, 1] : Fin 2 → Fin S64x24.rank)
  scatter_S100000_S1700000x1_S1700000_n_0_0_1_wf : ScatterDims.WF S100000 S1700000x1 S1700000 [] [0] [0] 1
  dot_S5000x3_S3x64_S5000x64_1_0_0_1_n_n_wf : DotDims.WF S5000x3 S3x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x24_S5000x24_1_0_0_1_n_n_wf : DotDims.WF S5000x64 S64x24 S5000x24 [1] [0] [0] [1] [] []
  gather_S100000x24_S1700000x1_S1700000x24_1_0_n_n_0_1_124_wf : GatherDims.WF S100000x24 S1700000x1 S1700000x24 [1] [0] [] [0] [] 1 ![1, 24]
  scatter_S100000x24_S1700000x1_S1700000x24_1_0_0_1_wf : ScatterDims.WF S100000x24 S1700000x1 S1700000x24 [1] [0] [0] 1
  scatter_S64x24_S100000x1_S100000x24_1_0_0_1_wf : ScatterDims.WF S64x24 S100000x1 S100000x24 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x24.size a ≤ S64x24.size a
  hwx2_3 : ∀ i : grid2.Coords, EltTy.bits .f32 = 32 ∨ (Rect.block (s := S64x24) S64x24.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x24.size a ≤ S100000x24.size a
  hwx2_4 : ∀ i : grid2.Coords, EltTy.bits .bf16 = 32 ∨ (Rect.block (s := S100000x24) S5000x24.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x24.size a ≤ S100000x24.size a
  hwx3_0 : ∀ i : grid3.Coords, EltTy.bits .f32 = 32 ∨ (Rect.block (s := S100000x24) S5000x24.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S24.size a ≤ S24.size a
  hwx3_2 : ∀ i : grid3.Coords, EltTy.bits .f32 = 32 ∨ (Rect.block (s := S24) S24.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x24.size a ≤ S100000x24.size a
  hwx3_3 : ∀ i : grid3.Coords, EltTy.bits .f32 = 32 ∨ (Rect.block (s := S100000x24) S5000x24.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x24_S5000x24_1_0_0_1_n_n : DotDims S5000x64 S64x24 S5000x24 where
  lhsContracting := [1]
  rhsContracting := [0]
  lhsNonContracting := [0]
  rhsNonContracting := [1]
  lhsBatch := []
  rhsBatch := []
  wf := dot_S5000x64_S64x24_S5000x24_1_0_0_1_n_n_wf
def gather_S100000x24_S1700000x1_S1700000x24_1_0_n_n_0_1_124 : GatherDims S100000x24 S1700000x1 S1700000x24 where
  offsetDims := [1]
  collapsedSliceDims := [0]
  operandBatchingDims := []
  startIndicesBatchingDims := []
  startIndexMap := [0]
  indexVectorDim := 1
  sliceSizes := ![1, 24]
  wf := gather_S100000x24_S1700000x1_S1700000x24_1_0_n_n_0_1_124_wf
def scatter_S100000x24_S1700000x1_S1700000x24_1_0_0_1 : ScatterDims S100000x24 S1700000x1 S1700000x24 where
  updateWindowDims := [1]
  insertedWindowDims := [0]
  scatterDimsToOperandDims := [0]
  indexVectorDim := 1
  wf := scatter_S100000x24_S1700000x1_S1700000x24_1_0_0_1_wf
def scatter_S64x24_S100000x1_S100000x24_1_0_0_1 : ScatterDims S64x24 S100000x1 S100000x24 where
  updateWindowDims := [1]
  insertedWindowDims := [0]
  scatterDimsToOperandDims := [0]
  indexVectorDim := 1
  wf := scatter_S64x24_S100000x1_S100000x24_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x24.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x24.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v51) S5000x24.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x24.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x64 : Shape := ⟨2, ![64, 64]⟩
abbrev S64x24 : Shape := ⟨2, ![64, 24]⟩
abbrev S24 : Shape := ⟨1, ![24]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x24 : Shape := ⟨2, ![100000, 24]⟩
abbrev S1700000x24 : Shape := ⟨2, ![1700000, 24]⟩
abbrev S1x24 : Shape := ⟨2, ![1, 24]⟩
abbrev S100000x1 : Shape := ⟨2, ![100000, 1]⟩
abbrev S64x1 : Shape := ⟨2, ![64, 1]⟩

abbrev nBuf : Space → Nat
  | .hbm => 133
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x64, .f32⟩
  | 4 => ⟨S64, .f32⟩
  | 5 => ⟨S64x64, .f32⟩
  | 6 => ⟨S64, .f32⟩
  | 7 => ⟨S64x24, .f32⟩
  | 8 => ⟨S24, .f32⟩
  | 9 => ⟨S1x1600000, .i32⟩
  | 10 => ⟨S1600000, .i32⟩
  | 11 => ⟨S100000, .i32⟩
  | 12 => ⟨S1700000, .i32⟩
  | 13 => ⟨S1x1600000, .i32⟩
  | 14 => ⟨S1600000, .i32⟩
  | 15 => ⟨S100000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x1, .f32⟩
  | 84 => ⟨S1700000x64, .f32⟩
  | 85 => ⟨S1700000x64, .f32⟩
  | 86 => ⟨S_, .f32⟩
  | 87 => ⟨S100000x64, .f32⟩
  | 88 => ⟨S1700000x1, .i32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x24, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x24, .f32⟩
  | 106 => ⟨S1700000x1, .f32⟩
  | 107 => ⟨S1700000x24, .f32⟩
  | 108 => ⟨S1700000x24, .f32⟩
  | 109 => ⟨S_, .f32⟩
  | 110 => ⟨S100000x24, .f32⟩
  | 111 => ⟨S1700000x1, .i32⟩
  | 112 => ⟨S100000x24, .f32⟩
  | 113 => ⟨S1x24, .f32⟩
  | 114 => ⟨S100000x24, .f32⟩
  | 115 => ⟨S100000x24, .f32⟩
  | 116 => ⟨S_, .f32⟩
  | 117 => ⟨S64x24, .f32⟩
  | 118 => ⟨S100000x1, .i32⟩
  | 119 => ⟨S64x24, .f32⟩
  | 120 => ⟨S_, .f32⟩
  | 121 => ⟨S100000, .f32⟩
  | 122 => ⟨S_, .f32⟩
  | 123 => ⟨S64, .f32⟩
  | 124 => ⟨S100000x1, .i32⟩
  | 125 => ⟨S64, .f32⟩
  | 126 => ⟨S_, .f32⟩
  | 127 => ⟨S64, .f32⟩
  | _ => ⟨S100000x3, .f32⟩

abbrev hbmTy0_1 (i : Nat) : BufTy := match i % 128 with
  | 0 => ⟨S64, .f32⟩
  | 1 => ⟨S64x1, .f32⟩
  | 2 => ⟨S64x24, .f32⟩
  | 3 => ⟨S64x24, .f32⟩
  | 4 => ⟨S64x24, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_c_13 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x24_0_1 : S1700000x1.BroadcastsInDim S1700000x24 (![0, 1] : Fin 2 → Fin S1700000x24.rank)
  bcast_S_S100000x24 : S_.BroadcastsInDim S100000x24 (![] : Fin 0 → Fin S100000x24.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S64x24 : S_.BroadcastsInDim S64x24 (![] : Fin 0 → Fin S64x24.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x24_0_1 : S64x1.BroadcastsInDim S64x24 (![0, 1] : Fin 2 → Fin S64x24.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x24_S100000x24_1_0_0_1_n_n_wf : DotDims.WF S100000x64 S64x24 S100000x24 [1] [0] [0] [1] [] []
  gather_S100000x24_S1700000x1_S1700000x24_1_0_n_n_0_1_124_wf : GatherDims.WF S100000x24 S1700000x1 S1700000x24 [1] [0] [] [0] [] 1 ![1, 24]
  scatter_S100000x24_S1700000x1_S1700000x24_1_0_0_1_wf : ScatterDims.WF S100000x24 S1700000x1 S1700000x24 [1] [0] [0] 1
  scatter_S64x24_S100000x1_S100000x24_1_0_0_1_wf : ScatterDims.WF S64x24 S100000x1 S100000x24 [1] [0] [0] 1
  scatter_S64_S100000x1_S100000_n_0_0_1_wf : ScatterDims.WF S64 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x24_S100000x24_1_0_0_1_n_n : DotDims S100000x64 S64x24 S100000x24 where
  lhsContracting := [1]
  rhsContracting := [0]
  lhsNonContracting := [0]
  rhsNonContracting := [1]
  lhsBatch := []
  rhsBatch := []
  wf := dot_S100000x64_S64x24_S100000x24_1_0_0_1_n_n_wf
def gather_S100000x24_S1700000x1_S1700000x24_1_0_n_n_0_1_124 : GatherDims S100000x24 S1700000x1 S1700000x24 where
  offsetDims := [1]
  collapsedSliceDims := [0]
  operandBatchingDims := []
  startIndicesBatchingDims := []
  startIndexMap := [0]
  indexVectorDim := 1
  sliceSizes := ![1, 24]
  wf := gather_S100000x24_S1700000x1_S1700000x24_1_0_n_n_0_1_124_wf
def scatter_S100000x24_S1700000x1_S1700000x24_1_0_0_1 : ScatterDims S100000x24 S1700000x1 S1700000x24 where
  updateWindowDims := [1]
  insertedWindowDims := [0]
  scatterDimsToOperandDims := [0]
  indexVectorDim := 1
  wf := scatter_S100000x24_S1700000x1_S1700000x24_1_0_0_1_wf
def scatter_S64x24_S100000x1_S100000x24_1_0_0_1 : ScatterDims S64x24 S100000x1 S100000x24 where
  updateWindowDims := [1]
  insertedWindowDims := [0]
  scatterDimsToOperandDims := [0]
  indexVectorDim := 1
  wf := scatter_S64x24_S100000x1_S100000x24_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KRun.lean ====
/-
  The idealized kernel's run with its RESULT named. The generated frame certificate runs @main as eleven segments (a
  stretch of host operations or a kernel region each) and reads, of the final thread state, only the argument arrays.
  The same run also leaves the result buffer at the contents the fold of the segments gives it, `W11 m ρ c main_v65`:
  every unscoped buffer of the last thread state is read against the final memory, the result's among them.
-/
import proofs.«150518_j66838281061050_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold's contents and
    the arguments end as launched. -/
theorem run_main : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Run

end
-- ==== Proof.LibRows.lean ====
/-
  Rows moved by an index array: `x[idx]` of a matrix or a vector (a gather of whole rows at one start index per row),
  and `zeros.at[idx].add(u)` (a scatter-add of whole rows). Read at an index written by coordinates:

  * a gathered row is the operand's row at the start index, read signed and clamped into the operand's range;
  * an update row lands on an operand row only if its start index, read signed, IS that row's number.

  With them, the one law of the extended reals a sum of messages needs when a factor of the TARGET node is moved out of
  the sum: a sum times a factor that is non-negative and not `+∞` is the sum of the products. (For a general factor the
  law fails at `+∞ + -∞`.)
-/
import Idealize.ShloMosaic.PureOps.Ideal
import Idealize.ShloMosaic.PureOps.Ideal.Laws
import Idealize.ShloMosaic.Lib.ValueIdx

noncomputable section

open scoped BigOperators

namespace Cert.LibRows

open Idealize.ShloMosaic Idealize.ShloMosaic.ValueIdx

variable {α : Type}

/-! ## The start index of row `e`, read signed -/

/-- Row `e`'s start index (the one entry of row `e` of an `[E, 1]` index array), as a signed integer. -/
def startOf {E w : ℕ} (idx : IVec ⟨2, ![E, 1]⟩ w) (e : Fin E) : Int := (idx (ix2 e (0 : Fin 1))).toInt

/-- The same clamped into `[0, N − 1]`: the operand row a gather reads. -/
def clampRow (N : ℕ) {E w : ℕ} (idx : IVec ⟨2, ![E, 1]⟩ w) (e : Fin E) : ℕ := min (startOf idx e).toNat (N - 1)

theorem clampRow_lt {N : ℕ} (hN : 0 < N) {E w : ℕ} (idx : IVec ⟨2, ![E, 1]⟩ w) (e : Fin E) : clampRow N idx e < N := by
  unfold clampRow; omega

/-- A start index that is a row number is its own clamp. -/
theorem clampRow_of_eq {N : ℕ} {E w : ℕ} (idx : IVec ⟨2, ![E, 1]⟩ w) (e : Fin E) (n : Fin N) (h : startOf idx e = (n.val : Int)) :
    clampRow N idx e = n.val := by
  unfold clampRow; rw [h]; have := n.isLt; omega

/-! ## Gather of rows of a matrix -/

/-- The dimension numbers of `x[idx]` for `x : [N, C]`, `idx : [E, 1]`, result `[E, C]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gathered matrix is the operand at row `clampRow idx e`, column `c`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (⟨clampRow N idx e, clampRow_lt hN idx e⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = clampRow N idx e
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ (rowGather N E C wf).startIndexMap from
        fun h => absurd (congrArg Fin.val (List.mem_singleton.mp h)) (show ¬((1 : ℕ) = 0) from Nat.one_ne_zero))]
    rw [hs]
    simp only [Nat.add_zero, Nat.zero_add]
    rfl

/-! ## Gather of entries of a vector -/

/-- The dimension numbers of `v[idx]` for `v : [N]`, `idx : [E, 1]`, result `[E]`. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at `clampRow idx e`. -/
theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (⟨clampRow N idx e, clampRow_lt hN idx e⟩ : Fin N)) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = clampRow N idx e
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter of rows into a matrix -/

/-- The dimension numbers of `z.at[idx].add(u)` for `z : [N, C]`, `idx : [E, 1]`, `u : [E, C]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update entry `j` lands on operand entry `i`, then row `j 0`'s start index, read signed, is the row number `i 0`. -/
theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter N E C wf).resultIdx? j idx = some i) :
    startOf idx (⟨(j 0).val, idx2_lt0 j⟩ : Fin E) = (((⟨(i 0).val, idx2_lt0 i⟩ : Fin N).val : ℕ) : Int) := by
  have hs : (rowScatter N E C wf).start j idx 0 = startOf idx (⟨(j 0).val, idx2_lt0 j⟩ : Fin E) := by
    unfold ScatterDims.start startOf
    rw [dif_pos (show (0 : Fin 2) ∈ (rowScatter N E C wf).scatterDimsToOperandDims from List.mem_singleton.mpr rfl)]
    refine congrArg (fun k => (idx k).toInt) ?_
    funext b; refine Fin.ext ?_
    match b with
    | ⟨0, _⟩ => rfl
    | ⟨1, _⟩ => rfl
  have hw : (rowScatter N E C wf).window j 0 = 0 := by
    unfold ScatterDims.window
    rw [dif_neg (show (0 : Fin 2) ∉ (rowScatter N E C wf).sKept from
      fun h => by simp [ScatterDims.sKept, Shape.kept, List.mem_filter] at h)]
  unfold ScatterDims.resultIdx? at h
  split at h
  · rename_i hb
    have hi := congrFun (Option.some.inj h) 0
    have h0 := hb 0
    rw [hs, hw] at h0
    have hv : (i 0).val = ((rowScatter N E C wf).start j idx 0 + ((rowScatter N E C wf).window j 0 : ℕ)).toNat :=
      (congrArg Fin.val hi).symm
    rw [hs, hw] at hv
    show startOf idx _ = ((i 0).val : Int)
    omega
  · exact absurd h (by simp)

/-! ## A sum times a non-negative finite factor -/

/-- Over the extended reals, a finite sum times a factor that is non-negative and not `+∞` is the sum of the products. -/
theorem sum_mul_of_nonneg_of_ne_top {ι : Type} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- Messages `a j · (p j · q j)` summed over a set on which the last factor is one constant `d` (non-negative, not
    `+∞`): that constant comes out of the sum. -/
theorem sum_factor_out {ι : Type} (s : Finset ι) (a p q : ι → EReal) {d : EReal} (h0 : 0 ≤ d) (ht : d ≠ ⊤)
    (hq : ∀ j ∈ s, q j = d) : ∑ j ∈ s, a j * (p j * q j) = (∑ j ∈ s, a j * p j) * d := by
  rw [sum_mul_of_nonneg_of_ne_top s _ h0 ht]
  exact Finset.sum_congr rfl fun j hj => by rw [hq j hj, mul_assoc]

/-- `Ideal.rsqrt` of a positive extended real is non-negative and not `+∞`. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨le_of_eq (by simp), by simp⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

end Cert.LibRows

end
-- ==== Proof.Layer.lean ====
/-
  One graph-convolution layer over the extended reals, written by coordinates.

  For node features `X : [N, K]`, weights `W : [K, C]`, a per-node factor `dv : [N]` (the inverse square root of the
  degree), edge endpoints given as index arrays and a bias `b : [C]`:

    hmat X W      the projected features  X · W
    pre H dv      every row n of H scaled by dv n                 (the factor of the SOURCE node, applied before the edges)
    agg g si di   for every node n the sum, over the edges e whose target index is n, of row (source of e) of g
    post P dv b   every row n of P scaled by dv n, plus the bias   (the factor of the TARGET node, applied after the edges)

  The symmetric normalisation multiplies the message of edge e by dv (source e) · dv (target e) inside the sum.
  `agg_norm` says that this is `agg` of the pre-scaled features times dv at the target node: the target's factor is
  the same for every edge that lands on the node, and it is non-negative and finite, so it leaves the sum
  (`Cert.LibRows.sum_factor_out`).
-/
import proofs.«150518_j66838281061050_2_alg».proof.Proof.LibRows

noncomputable section

open scoped BigOperators

namespace Cert.Gcn

open Idealize.ShloMosaic Idealize.ShloMosaic.ValueIdx Cert.LibRows

/-- The matrix product at entry `(n, c)`: the sum over `k` of `X (n, k) · W (k, c)`. -/
def hmat {N K C : ℕ} (X : (⟨2, ![N, K]⟩ : Shape).Idx → EReal) (W : (⟨2, ![K, C]⟩ : Shape).Idx → EReal) :
    (⟨2, ![N, C]⟩ : Shape).Idx → EReal :=
  fun i => ∑ k : Fin K, X (ix2 (i 0) k) * W (ix2 k (i 1))

/-- Row `n` scaled by `dv n`. -/
def pre {N C : ℕ} (H : (⟨2, ![N, C]⟩ : Shape).Idx → EReal) (dv : (⟨1, ![N]⟩ : Shape).Idx → EReal) :
    (⟨2, ![N, C]⟩ : Shape).Idx → EReal :=
  fun i => H i * dv (ix1 (i 0))

/-- Row `n` scaled by `dv n`, plus the bias of the column. -/
def post {N C : ℕ} (P : (⟨2, ![N, C]⟩ : Shape).Idx → EReal) (dv : (⟨1, ![N]⟩ : Shape).Idx → EReal)
    (b : (⟨1, ![C]⟩ : Shape).Idx → EReal) : (⟨2, ![N, C]⟩ : Shape).Idx → EReal :=
  fun i => P i * dv (ix1 (i 0)) + b (ix1 (i 1))

/-- The positive part, entry by entry. -/
def relu {s : Shape} (O : s.Idx → EReal) : s.Idx → EReal := fun i => max (O i) 0

/-- Rows of `g` gathered at the source indices `si` and summed into the rows named by the target indices `di`. -/
def agg {N E C : ℕ} (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (g : (⟨2, ![N, C]⟩ : Shape).Idx → EReal) (si di : IVec ⟨2, ![E, 1]⟩ 32) : (⟨2, ![N, C]⟩ : Shape).Idx → EReal :=
  Ideal.hostScatterAdd (rowScatter N E C wfS) (fun _ => 0) di (Host.gather (rowGather N E C wfG) g si)

/-- One whole layer before its activation: project, scale by the source factor, aggregate along the edges, scale by the
    target factor, add the bias. -/
def layerOut {N E K C : ℕ} (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (X : (⟨2, ![N, K]⟩ : Shape).Idx → EReal) (W : (⟨2, ![K, C]⟩ : Shape).Idx → EReal)
    (dv : (⟨1, ![N]⟩ : Shape).Idx → EReal) (si di : IVec ⟨2, ![E, 1]⟩ 32) (b : (⟨1, ![C]⟩ : Shape).Idx → EReal) :
    (⟨2, ![N, C]⟩ : Shape).Idx → EReal :=
  post (agg wfS wfG (pre (hmat X W) dv) si di) dv b

/-- THE LAYER LAW. Messages `H (source e) · (dv (source e) · dv (target' e))` summed over the edges landing on node `n`
    are the pre-scaled rows summed over the same edges, times `dv n` — provided every `dv n` is non-negative and not
    `+∞`, and provided an edge whose target index IS the row number `n` reads `dv` at `n` through the second index
    array `dw` (the target indices as the gather normalises and clamps them). -/
theorem agg_norm {N E C : ℕ} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (H : (⟨2, ![N, C]⟩ : Shape).Idx → EReal) (dv : (⟨1, ![N]⟩ : Shape).Idx → EReal) (si di dw : IVec ⟨2, ![E, 1]⟩ 32)
    (hd : ∀ n, 0 ≤ dv n ∧ dv n ≠ ⊤)
    (hw : ∀ (e : Fin E) (n : Fin N), startOf di e = (n.val : Int) → clampRow N dw e = n.val)
    (i : (⟨2, ![N, C]⟩ : Shape).Idx) :
    Ideal.hostScatterAdd (rowScatter N E C wfS) (fun _ => 0) di
        (fun j => Host.gather (rowGather N E C wfG) H si j
          * (Host.gather (vecGather N E wfV) dv si (ix1 (j 0)) * Host.gather (vecGather N E wfV) dv dw (ix1 (j 0)))) i
      = agg wfS wfG (pre H dv) si di i * dv (ix1 (i 0)) := by
  unfold agg Ideal.hostScatterAdd
  rw [zero_add, zero_add]
  refine (sum_factor_out _ _ _ _ (hd (ix1 (i 0))).1 (hd (ix1 (i 0))).2 ?_).trans ?_
  · intro j hj
    have hl := rowScatter_lands wfS di j i (Finset.mem_filter.mp hj).2
    have hc := hw ⟨(j 0).val, idx2_lt0 j⟩ ⟨(i 0).val, idx2_lt0 i⟩ hl
    have hg := vecGather_apply hN wfV dv dw (⟨(j 0).val, idx2_lt0 j⟩ : Fin E)
    refine hg.trans (congrArg dv ?_)
    funext a
    obtain rfl : a = 0 := Subsingleton.elim _ _
    exact Fin.ext hc
  · refine congrArg (· * dv (ix1 (i 0))) (Finset.sum_congr rfl fun j _ => ?_)
    obtain ⟨e, c, rfl⟩ : ∃ (e : Fin E) (c : Fin C), j = ix2 e c := ⟨j 0, j 1, eq_ix2 j⟩
    rw [rowGather_apply hN wfG H si e c, rowGather_apply hN wfG (pre H dv) si e c]
    exact congrArg (H _ * ·) (vecGather_apply hN wfV dv si e)

end Cert.Gcn

end
-- ==== Proof.KSpec.lean ====
/-
  What each of the four kernel regions leaves in its output array, as ONE function of the arrays it reads, written by
  coordinates. The per-node factor reaches a region as a column `D : [N, 1]`; `preC` and `postC` are `Cert.Gcn.pre` and
  `Cert.Gcn.post` with the factor read off that column, and they agree with them when the column holds a vector's entries.
-/
import proofs.«150518_j66838281061050_2_alg».proof.Proof.Layer

noncomputable section

open scoped BigOperators

namespace Cert.Gcn

open Idealize.ShloMosaic Idealize.ShloMosaic.ValueIdx

/-- An extended real, typed as one (the identity): what an array of a program's buffer type holds at an index. -/
abbrev asE (x : EReal) : EReal := x

/-- Row `n` scaled by the column's entry `D (n, 0)`. -/
def preC {N C : ℕ} (H : (⟨2, ![N, C]⟩ : Shape).Idx → EReal) (D : (⟨2, ![N, 1]⟩ : Shape).Idx → EReal) :
    (⟨2, ![N, C]⟩ : Shape).Idx → EReal :=
  fun i => H i * D (ix2 (i 0) (0 : Fin 1))

/-- Row `n` scaled by `D (n, 0)`, plus the bias of the column. -/
def postC {N C : ℕ} (P : (⟨2, ![N, C]⟩ : Shape).Idx → EReal) (D : (⟨2, ![N, 1]⟩ : Shape).Idx → EReal)
    (b : (⟨1, ![C]⟩ : Shape).Idx → EReal) : (⟨2, ![N, C]⟩ : Shape).Idx → EReal :=
  fun i => P i * D (ix2 (i 0) (0 : Fin 1)) + b (ix1 (i 1))

theorem preC_eq_pre {N C : ℕ} (H : (⟨2, ![N, C]⟩ : Shape).Idx → EReal) (D : (⟨2, ![N, 1]⟩ : Shape).Idx → EReal)
    (dv : (⟨1, ![N]⟩ : Shape).Idx → EReal) (h : ∀ n : Fin N, D (ix2 n (0 : Fin 1)) = dv (ix1 n)) : preC H D = pre H dv := by
  funext i; unfold preC pre; exact congrArg (H i * ·) (h (i 0))

theorem postC_eq_post {N C : ℕ} (P : (⟨2, ![N, C]⟩ : Shape).Idx → EReal) (D : (⟨2, ![N, 1]⟩ : Shape).Idx → EReal)
    (dv : (⟨1, ![N]⟩ : Shape).Idx → EReal) (b : (⟨1, ![C]⟩ : Shape).Idx → EReal)
    (h : ∀ n : Fin N, D (ix2 n (0 : Fin 1)) = dv (ix1 n)) : postC P D b = post P dv b := by
  funext i; unfold postC post; exact congrArg (fun z => P i * z + b (ix1 (i 1))) (h (i 0))

end Cert.Gcn

end
-- ==== Proof.KMatmul.lean ====
/-
  The three matrix products of the kernel bodies read at an entry. Each `tpu.matmul` contracts the second axis of its left
  operand with the first axis of its right operand into a zero accumulator, so over the extended reals entry (r, c)
  of the result is the sum over k of left (r, k) · right (k, c).
-/
import proofs.«150518_j66838281061050_2_alg».proof.Proof.Gen.KernelIdeal
import Idealize.ShloMosaic.Lib.ValueIdx
import Idealize.ShloMosaic.PureOps.Ideal.Laws

noncomputable section

open scoped BigOperators

namespace Cert.KernelIdeal.Mm

open Idealize.ShloMosaic Idealize.ShloMosaic.ValueIdx Cert.KernelIdeal

/-! ### `dot_S5000x3_S3x64_S5000x64_1_0_0_1_n_n`: [5000, 3] · [3, 64] -/

theorem lhsA_0 (i : S5000x64.Idx) (q : dot_S5000x3_S3x64_S5000x64_1_0_0_1_n_n.contr.Idx) : (dot_S5000x3_S3x64_S5000x64_1_0_0_1_n_n.lhsIdx i q 0).val = (i 0).val := by
  unfold DotDims.lhsIdx
  rw [dif_neg (show ¬(0 : Fin S5000x3.rank) ∈ dot_S5000x3_S3x64_S5000x64_1_0_0_1_n_n.lhsBatch by decide),
    dif_pos (show (0 : Fin S5000x3.rank) ∈ dot_S5000x3_S3x64_S5000x64_1_0_0_1_n_n.lhsNonContracting by decide)]
  rfl
theorem lhsA_1 (i : S5000x64.Idx) (q : dot_S5000x3_S3x64_S5000x64_1_0_0_1_n_n.contr.Idx) : (dot_S5000x3_S3x64_S5000x64_1_0_0_1_n_n.lhsIdx i q 1).val = (q ⟨0, by decide⟩).val :=
  dot_S5000x3_S3x64_S5000x64_1_0_0_1_n_n.lhsIdx_val_of_single rfl i q
theorem rhsA_0 (i : S5000x64.Idx) (q : dot_S5000x3_S3x64_S5000x64_1_0_0_1_n_n.contr.Idx) : (dot_S5000x3_S3x64_S5000x64_1_0_0_1_n_n.rhsIdx i q 0).val = (q ⟨0, by decide⟩).val :=
  dot_S5000x3_S3x64_S5000x64_1_0_0_1_n_n.rhsIdx_val_of_single rfl i q
theorem rhsA_1 (i : S5000x64.Idx) (q : dot_S5000x3_S3x64_S5000x64_1_0_0_1_n_n.contr.Idx) : (dot_S5000x3_S3x64_S5000x64_1_0_0_1_n_n.rhsIdx i q 1).val = (i 1).val := by
  unfold DotDims.rhsIdx
  rw [dif_neg (show ¬(1 : Fin S3x64.rank) ∈ dot_S5000x3_S3x64_S5000x64_1_0_0_1_n_n.rhsBatch by decide),
    dif_pos (show (1 : Fin S3x64.rank) ∈ dot_S5000x3_S3x64_S5000x64_1_0_0_1_n_n.rhsNonContracting by decide)]
  rfl

/-- The matrix unit's product into a zero accumulator, at entry `y`: the sum over `k` of `l (y 0, k) · r (k, y 1)`. -/
theorem mmA_apply {φ₁ φ₂ : FTy} (l : FVec Ideal S5000x3 φ₁) (r : FVec Ideal S3x64 φ₂) (y : S5000x64.Idx) :
    matmul dot_S5000x3_S3x64_S5000x64_1_0_0_1_n_n none l r (constant S5000x64 .f32 0x00000000#32) y
      = ∑ k : Fin 3, l (ix2 (y 0) k) * r (ix2 k (y 1)) := by
  refine (Ideal.matmul_constant_zero_apply dot_S5000x3_S3x64_S5000x64_1_0_0_1_n_n none l r y).trans ?_
  rw [← Equiv.sum_comp (ValueIdx.contrEquiv1 dot_S5000x3_S3x64_S5000x64_1_0_0_1_n_n 3 rfl rfl).symm]
  refine Finset.sum_congr rfl fun k _ => ?_
  have hk := ValueIdx.contrEquiv1_symm_val dot_S5000x3_S3x64_S5000x64_1_0_0_1_n_n 3 rfl rfl k
  have el : dot_S5000x3_S3x64_S5000x64_1_0_0_1_n_n.lhsIdx y ((ValueIdx.contrEquiv1 dot_S5000x3_S3x64_S5000x64_1_0_0_1_n_n 3 rfl rfl).symm k) = ix2 (y 0) k :=
    funext fun a => Fin.ext (by
      match a with
      | ⟨0, _⟩ => exact lhsA_0 _ _
      | ⟨1, _⟩ => exact (lhsA_1 _ _).trans hk)
  have er : dot_S5000x3_S3x64_S5000x64_1_0_0_1_n_n.rhsIdx y ((ValueIdx.contrEquiv1 dot_S5000x3_S3x64_S5000x64_1_0_0_1_n_n 3 rfl rfl).symm k) = ix2 k (y 1) :=
    funext fun a => Fin.ext (by
      match a with
      | ⟨0, _⟩ => exact (rhsA_0 _ _).trans hk
      | ⟨1, _⟩ => exact rhsA_1 _ _)
  exact congrArg₂ (· * ·) (congrArg l el) (congrArg r er)

/-! ### `dot_S5000x64_S64x64_S5000x64_1_0_0_1_n_n`: [5000, 64] · [64, 64] -/

theorem lhsB_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The matrix unit's product into a zero accumulator, at entry `y`: the sum over `k` of `l (y 0, k) · r (k, y 1)`. -/
theorem mmB_apply {φ₁ φ₂ : FTy} (l : FVec Ideal S5000x64 φ₁) (r : FVec Ideal S64x64 φ₂) (y : S5000x64.Idx) :
    matmul dot_S5000x64_S64x64_S5000x64_1_0_0_1_n_n none l r (constant S5000x64 .f32 0x00000000#32) y
      = ∑ k : Fin 64, l (ix2 (y 0) k) * r (ix2 k (y 1)) := by
  refine (Ideal.matmul_constant_zero_apply dot_S5000x64_S64x64_S5000x64_1_0_0_1_n_n none l r y).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx y ((ValueIdx.contrEquiv1 dot_S5000x64_S64x64_S5000x64_1_0_0_1_n_n 64 rfl rfl).symm k) = ix2 (y 0) k :=
    funext fun a => Fin.ext (by
      match a with
      | ⟨0, _⟩ => exact lhsB_0 _ _
      | ⟨1, _⟩ => exact (lhsB_1 _ _).trans hk)
  have er : dot_S5000x64_S64x64_S5000x64_1_0_0_1_n_n.rhsIdx y ((ValueIdx.contrEquiv1 dot_S5000x64_S64x64_S5000x64_1_0_0_1_n_n 64 rfl rfl).symm k) = ix2 k (y 1) :=
    funext fun a => Fin.ext (by
      match a with
      | ⟨0, _⟩ => exact (rhsB_0 _ _).trans hk
      | ⟨1, _⟩ => exact rhsB_1 _ _)
  exact congrArg₂ (· * ·) (congrArg l el) (congrArg r er)

/-! ### `dot_S5000x64_S64x24_S5000x24_1_0_0_1_n_n`: [5000, 64] · [64, 24] -/

theorem lhsC_0 (i : S5000x24.Idx) (q : dot_S5000x64_S64x24_S5000x24_1_0_0_1_n_n.contr.Idx) : (dot_S5000x64_S64x24_S5000x24_1_0_0_1_n_n.lhsIdx i q 0).val = (i 0).val := by
  unfold DotDims.lhsIdx
  rw [dif_neg (show ¬(0 : Fin S5000x64.rank) ∈ dot_S5000x64_S64x24_S5000x24_1_0_0_1_n_n.lhsBatch by decide),
    dif_pos (show (0 : Fin S5000x64.rank) ∈ dot_S5000x64_S64x24_S5000x24_1_0_0_1_n_n.lhsNonContracting by decide)]
  rfl
theorem lhsC_1 (i : S5000x24.Idx) (q : dot_S5000x64_S64x24_S5000x24_1_0_0_1_n_n.contr.Idx) : (dot_S5000x64_S64x24_S5000x24_1_0_0_1_n_n.lhsIdx i q 1).val = (q ⟨0, by decide⟩).val :=
  dot_S5000x64_S64x24_S5000x24_1_0_0_1_n_n.lhsIdx_val_of_single rfl i q
theorem rhsC_0 (i : S5000x24.Idx) (q : dot_S5000x64_S64x24_S5000x24_1_0_0_1_n_n.contr.Idx) : (dot_S5000x64_S64x24_S5000x24_1_0_0_1_n_n.rhsIdx i q 0).val = (q ⟨0, by decide⟩).val :=
  dot_S5000x64_S64x24_S5000x24_1_0_0_1_n_n.rhsIdx_val_of_single rfl i q
theorem rhsC_1 (i : S5000x24.Idx) (q : dot_S5000x64_S64x24_S5000x24_1_0_0_1_n_n.contr.Idx) : (dot_S5000x64_S64x24_S5000x24_1_0_0_1_n_n.rhsIdx i q 1).val = (i 1).val := by
  unfold DotDims.rhsIdx
  rw [dif_neg (show ¬(1 : Fin S64x24.rank) ∈ dot_S5000x64_S64x24_S5000x24_1_0_0_1_n_n.rhsBatch by decide),
    dif_pos (show (1 : Fin S64x24.rank) ∈ dot_S5000x64_S64x24_S5000x24_1_0_0_1_n_n.rhsNonContracting by decide)]
  rfl

/-- The matrix unit's product into a zero accumulator, at entry `y`: the sum over `k` of `l (y 0, k) · r (k, y 1)`. -/
theorem mmC_apply {φ₁ φ₂ : FTy} (l : FVec Ideal S5000x64 φ₁) (r : FVec Ideal S64x24 φ₂) (y : S5000x24.Idx) :
    matmul dot_S5000x64_S64x24_S5000x24_1_0_0_1_n_n none l r (constant S5000x24 .f32 0x00000000#32) y
      = ∑ k : Fin 64, l (ix2 (y 0) k) * r (ix2 k (y 1)) := by
  refine (Ideal.matmul_constant_zero_apply dot_S5000x64_S64x24_S5000x24_1_0_0_1_n_n none l r y).trans ?_
  rw [← Equiv.sum_comp (ValueIdx.contrEquiv1 dot_S5000x64_S64x24_S5000x24_1_0_0_1_n_n 64 rfl rfl).symm]
  refine Finset.sum_congr rfl fun k _ => ?_
  have hk := ValueIdx.contrEquiv1_symm_val dot_S5000x64_S64x24_S5000x24_1_0_0_1_n_n 64 rfl rfl k
  have el : dot_S5000x64_S64x24_S5000x24_1_0_0_1_n_n.lhsIdx y ((ValueIdx.contrEquiv1 dot_S5000x64_S64x24_S5000x24_1_0_0_1_n_n 64 rfl rfl).symm k) = ix2 (y 0) k :=
    funext fun a => Fin.ext (by
      match a with
      | ⟨0, _⟩ => exact lhsC_0 _ _
      | ⟨1, _⟩ => exact (lhsC_1 _ _).trans hk)
  have er : dot_S5000x64_S64x24_S5000x24_1_0_0_1_n_n.rhsIdx y ((ValueIdx.contrEquiv1 dot_S5000x64_S64x24_S5000x24_1_0_0_1_n_n 64 rfl rfl).symm k) = ix2 k (y 1) :=
    funext fun a => Fin.ext (by
      match a with
      | ⟨0, _⟩ => exact (rhsC_0 _ _).trans hk
      | ⟨1, _⟩ => exact rhsC_1 _ _)
  exact congrArg₂ (· * ·) (congrArg l el) (congrArg r er)

end Cert.KernelIdeal.Mm

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.KReg0.lean ====
/-
  Region 0 (the first layer's projection): over the grid of 20 row blocks of 5000 nodes, the output array ends holding,
  at node n and channel c, (the sum over k of pos (n, k) · W1 (k, c)) times the factor column at (n, 0).
  A block's element (r, c) at grid point t is the array's element (5000 t + r, c); the weights' window is the whole
  matrix at every point.
-/
import proofs.«150518_j66838281061050_2_alg».proof.Proof.Gen.KernelIdeal.Frame
import proofs.«150518_j66838281061050_2_alg».proof.Proof.KSpec
import proofs.«150518_j66838281061050_2_alg».proof.Proof.KMatmul
import proofs.«150518_j66838281061050_2_alg».proof.Proof.LibLayout
import Idealize.ShloMosaic.Lib.Pipeline.Value
import Idealize.ShloMosaic.Lib.ValueLayout

set_option maxRecDepth 16384

noncomputable section

open scoped BigOperators

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The zero word of a splat scalar is the extended real 0. -/
theorem szero : (Scalar.ofBits (F := Ideal) .f32 0x00000000#32 : EReal) = 0 := Ideal.ofBits_zero_f32

/-- The body's stored value at element (p, q) of a block. -/
theorem pay_coords (x0 : Vec Ideal S5000x3 .f32) (x1 : Vec Ideal S3x64 .f32) (x2 : Vec Ideal S5000x1 .f32) (p : Fin 5000) (q : Fin 64) :
    k0_pay1 x0 x1 x2 (ix2 p q) = (∑ k : Fin 3, x0 (ix2 p k) * x1 (ix2 k q)) * x2 (ix2 p (0 : Fin 1)) := by
  unfold k0_pay1
  show (matmul (F := Ideal) dot_S5000x3_S3x64_S5000x64_1_0_0_1_n_n none (truncf .bf16 x0 bitsLt_bf16_f32) (truncf .bf16 x1 bitsLt_bf16_f32)
          (constant S5000x64 .f32 0x00000000#32)) (ix2 p q)
      * (broadcastTo S5000x64 (shapeCast S5000x1 x2 shapeCasts_S5000x1_S5000x1) broadcasts_S5000x1_S5000x64) (ix2 p q) = _
  rw [Mm.mmA_apply, shapeCast_self, Cert.LibLayout.broadcastTo_a1_ab_apply]
  rfl

theorem pay_apply (x0 : Vec Ideal S5000x3 .f32) (x1 : Vec Ideal S3x64 .f32) (x2 : Vec Ideal S5000x1 .f32) (y : S5000x64.Idx) :
    k0_pay1 x0 x1 x2 y = (∑ k : Fin 3, x0 (ix2 (y 0) k) * x1 (ix2 k (y 1))) * x2 (ix2 (y 0) (0 : Fin 1)) := by
  obtain ⟨p, q, rfl⟩ : ∃ (p : Fin 5000) (q : Fin 64), y = ix2 p q := ⟨y 0, y 1, eq_ix2 y⟩
  exact pay_coords x0 x1 x2 p q

/-- The printed index maps over the grid: the positions and the column move with the output's row block, the weights stay. -/
theorem idx_facts : ∀ t : Fin cfg0.N, (win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0)
    ∧ win0_3.index t (1 : Fin 2) = 0
    ∧ win0_3.index t (0 : Fin 2) = t.val :=
  (by decide +kernel : ∀ t : Fin grid0.N, _)

/-- WHAT POINT t WRITES BACK is block t of the projected, pre-scaled features. -/
theorem flushed_eq (c : Dev nD) (t : Fin cfg0.N) :
    (dat0 V c).flushed 3 t
      = ((cfg0.win 3).blk t).view.read (Elt Ideal) (preC (hmat (V c main_arg0) (V c main_arg3)) (V c main_v15)) := by
  show (cfg0.win 3).cut (grid0.coords t) ((dat0 V c).after 3 t) = _
  rw [after0_3]
  unfold out0_3
  rw [View.canon_unit_zero hz2]
  simp only [View.ld_unit_zero (S := S5000x3) hz2, View.ld_unit_zero (S := S3x64) hz2, View.ld_unit_zero (S := S5000x1) hz2]
  obtain ⟨⟨e0, e1, e2, e3, e4, e5⟩, e6, e7⟩ := idx_facts t
  funext y
  show k0_pay1 (iblk0 V c 0 t) (iblk0 V c 1 t) (iblk0 V c 2 t) y
    = preC (hmat (V c main_arg0) (V c main_arg3)) (V c main_v15) (((cfg0.win 3).blk t).view.emb y)
  refine (pay_apply (iblk0 V c 0 t) (iblk0 V c 1 t) (iblk0 V c 2 t) y).trans ?_
  show (∑ k : Fin 3, asE (V c main_arg0 (((cfg0.win 0).blk t).view.emb (ix2 (y 0) k)))
          * asE (V c main_arg3 (((cfg0.win 1).blk t).view.emb (ix2 k (y 1)))))
      * asE (V c main_v15 (((cfg0.win 2).blk t).view.emb (ix2 (y 0) (0 : Fin 1))))
    = (∑ k : Fin 3, asE (V c main_arg0 (ix2 ((((cfg0.win 3).blk t).view.emb y) 0) k))
          * asE (V c main_arg3 (ix2 k ((((cfg0.win 3).blk t).view.emb y) 1))))
      * asE (V c main_v15 (ix2 ((((cfg0.win 3).blk t).view.emb y) 0) (0 : Fin 1)))
  have h0 : ∀ k : Fin 3, ((cfg0.win 0).blk t).view.emb (ix2 (y 0) k) = ix2 ((((cfg0.win 3).blk t).view.emb y) 0) k := by
    intro k; funext a; apply Fin.ext
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 3 + 1 * k.val = k.val; omega
  have h1 : ∀ k : Fin 3, ((cfg0.win 1).blk t).view.emb (ix2 k (y 1)) = ix2 k ((((cfg0.win 3).blk t).view.emb y) 1) := by
    intro k; funext a; apply Fin.ext
    match a with
    | ⟨0, _⟩ => show win0_1.index t (0 : Fin 2) * 3 + 1 * k.val = k.val; omega
    | ⟨1, _⟩ => show win0_1.index t (1 : Fin 2) * 64 + 1 * (y 1).val = win0_3.index t (1 : Fin 2) * 64 + 1 * (y 1).val; omega
  have h2 : ((cfg0.win 2).blk t).view.emb (ix2 (y 0) (0 : Fin 1)) = ix2 ((((cfg0.win 3).blk t).view.emb y) 0) (0 : Fin 1) := by
    funext a; apply Fin.ext
    match a with
    | ⟨0, _⟩ => show win0_2.index t (0 : Fin 2) * 5000 + 1 * (y 0).val = win0_3.index t (0 : Fin 2) * 5000 + 1 * (y 0).val; omega
    | ⟨1, _⟩ => show win0_2.index t (1 : Fin 2) * 1 + 1 * 0 = 0; omega
  rw [h2]
  refine congrArg (· * asE (V c main_v15 (ix2 ((((cfg0.win 3).blk t).view.emb y) 0) (0 : Fin 1)))) (Finset.sum_congr rfl fun k _ => ?_)
  rw [h0 k, h1 k]
  all_goals rfl

/-- An index of the array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Every node row lies in the block of the point numbered by its row block. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 20 := N_0
  have hlt : (i 0).val / 5000 < cfg0.N := by show (i 0).val / 5000 < grid0.N; rw [hN]; omega
  have eRow : win0_3.index ⟨(i 0).val / 5000, hlt⟩ (0 : Fin 2) = (i 0).val / 5000 := (idx_facts ⟨(i 0).val / 5000, hlt⟩).2.2
  have eCol : win0_3.index ⟨(i 0).val / 5000, hlt⟩ (1 : Fin 2) = 0 := (idx_facts ⟨(i 0).val / 5000, hlt⟩).2.1
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    omega

/-- THE ARRAY after region 0, from the contents `V` the region is entered with. -/
theorem final (c : Dev nD) :
    (dat0 V c).arrAt 3 cfg0.N = preC (hmat (V c main_arg0) (V c main_arg3)) (V c main_v15) :=
  (dat0 V c).arrAt_eq_of_cover 3 _ (fun t _ => flushed_eq V c t) cover

end Cert.KernelIdeal.Reg0

end
-- ==== Proof.KReg1.lean ====
/-
  Region 1 (layer 1's epilogue fused with layer 2's projection): over the grid of 20 row blocks of 5000 nodes, the output array ends holding, at node n and
  channel c, the sum over k of max (aggregate (n, k) · factor (n, 0) + bias k, 0) · W (k, c), times the factor at (n, 0):
  the previous layer's epilogue, its activation, this layer's projection and the source-side scaling in one pass.
  A block's element (r, c) at grid point t is the array's element (5000 t + r, c); the bias and the weights are whole
  at every point.
-/
import proofs.«150518_j66838281061050_2_alg».proof.Proof.Gen.KernelIdeal.Frame
import proofs.«150518_j66838281061050_2_alg».proof.Proof.KSpec
import proofs.«150518_j66838281061050_2_alg».proof.Proof.KMatmul
import proofs.«150518_j66838281061050_2_alg».proof.Proof.LibLayout
import Idealize.ShloMosaic.Lib.Pipeline.Value
import Idealize.ShloMosaic.Lib.ValueLayout

set_option maxRecDepth 16384

noncomputable section

open scoped BigOperators

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The zero word of a splat scalar is the extended real 0. -/
theorem szero : (Scalar.ofBits (F := Ideal) .f32 0x00000000#32 : EReal) = 0 := Ideal.ofBits_zero_f32

/-- The body's stored value at element (p, q) of a block. -/
theorem pay_coords (x0 : Vec Ideal S5000x64 .f32) (x1 : Vec Ideal S5000x1 .f32) (x2 : Vec Ideal S64 .f32) (x3 : Vec Ideal S64x64 .f32)
    (p : Fin 5000) (q : Fin 64) :
    k1_pay1 x0 x1 x2 x3 (ix2 p q)
      = (∑ k : Fin 64, max (x0 (ix2 p k) * x1 (ix2 p (0 : Fin 1)) + x2 (ix1 k)) 0 * x3 (ix2 k q)) * x1 (ix2 p (0 : Fin 1)) := by
  unfold k1_pay1
  show (matmul (F := Ideal) dot_S5000x64_S64x64_S5000x64_1_0_0_1_n_n none
          (truncf .bf16 (maximumf (addf (mulf (shapeCast S5000x64 x0 shapeCasts_S5000x64_S5000x64)
                (broadcastTo S5000x64 (shapeCast S5000x1 x1 shapeCasts_S5000x1_S5000x1) broadcasts_S5000x1_S5000x64))
              (broadcastTo S5000x64 (shapeCast S1x64 x2 shapeCasts_S64_S1x64) broadcasts_S1x64_S5000x64))
            (broadcast S5000x64 (Scalar.ofBits (F := Ideal) .f32 0x00000000#32))) bitsLt_bf16_f32)
          (truncf .bf16 x3 bitsLt_bf16_f32) (constant S5000x64 .f32 0x00000000#32)) (ix2 p q)
      * (broadcastTo S5000x64 (shapeCast S5000x1 x1 shapeCasts_S5000x1_S5000x1) broadcasts_S5000x1_S5000x64) (ix2 p q) = _
  rw [Mm.mmB_apply]
  simp only [truncf_apply, maximumf_apply, addf_apply, mulf_apply, broadcast_apply, shapeCast_self,
    Cert.LibLayout.broadcastTo_a1_ab_apply, broadcastTo_1b_ab_apply, shapeCast_a_1a_apply, szero]

theorem pay_apply (x0 : Vec Ideal S5000x64 .f32) (x1 : Vec Ideal S5000x1 .f32) (x2 : Vec Ideal S64 .f32) (x3 : Vec Ideal S64x64 .f32)
    (y : S5000x64.Idx) :
    k1_pay1 x0 x1 x2 x3 y
      = (∑ k : Fin 64, max (x0 (ix2 (y 0) k) * x1 (ix2 (y 0) (0 : Fin 1)) + x2 (ix1 k)) 0 * x3 (ix2 k (y 1)))
        * x1 (ix2 (y 0) (0 : Fin 1)) := by
  obtain ⟨p, q, rfl⟩ : ∃ (p : Fin 5000) (q : Fin 64), y = ix2 p q := ⟨y 0, y 1, eq_ix2 y⟩
  exact pay_coords x0 x1 x2 x3 p q

/-- The printed index maps over the grid: the aggregate and the column move with the output's row block; the bias and
    the weights stay. -/
theorem idx_facts : ∀ t : Fin cfg1.N, (win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 1) = 0
    ∧ win1_3.index t (0 : Fin 2) = 0
    ∧ win1_3.index t (1 : Fin 2) = 0)
    ∧ win1_4.index t (1 : Fin 2) = 0
    ∧ win1_4.index t (0 : Fin 2) = t.val :=
  (by decide +kernel : ∀ t : Fin grid1.N, _)

/-- WHAT POINT t WRITES BACK is block t of the layer's pre-scaled projection of the activated previous layer. -/
theorem flushed_eq (c : Dev nD) (t : Fin cfg1.N) :
    (dat1 V c).flushed 4 t
      = ((cfg1.win 4).blk t).view.read (Elt Ideal)
          (preC (hmat (relu (postC (V c main_v27) (V c main_v15) (V c main_arg4))) (V c main_arg5)) (V c main_v15)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x1) hz2, View.ld_unit_zero (S := S64) hz1,
    View.ld_unit_zero (S := S64x64) hz2]
  obtain ⟨⟨e0, e1, e2, e3, e4, e5, e6⟩, e7, e8⟩ := idx_facts t
  funext y
  show k1_pay1 (iblk1 V c 0 t) (iblk1 V c 1 t) (iblk1 V c 2 t) (iblk1 V c 3 t) y
    = preC (hmat (relu (postC (V c main_v27) (V c main_v15) (V c main_arg4))) (V c main_arg5)) (V c main_v15)
        (((cfg1.win 4).blk t).view.emb y)
  refine (pay_apply (iblk1 V c 0 t) (iblk1 V c 1 t) (iblk1 V c 2 t) (iblk1 V c 3 t) y).trans ?_
  show (∑ k : Fin 64, max (asE (V c main_v27 (((cfg1.win 0).blk t).view.emb (ix2 (y 0) k)))
              * asE (V c main_v15 (((cfg1.win 1).blk t).view.emb (ix2 (y 0) (0 : Fin 1))))
              + asE (V c main_arg4 (((cfg1.win 2).blk t).view.emb (ix1 k)))) 0
          * asE (V c main_arg5 (((cfg1.win 3).blk t).view.emb (ix2 k (y 1)))))
      * asE (V c main_v15 (((cfg1.win 1).blk t).view.emb (ix2 (y 0) (0 : Fin 1))))
    = (∑ k : Fin 64, max (asE (V c main_v27 (ix2 ((((cfg1.win 4).blk t).view.emb y) 0) k))
              * asE (V c main_v15 (ix2 ((((cfg1.win 4).blk t).view.emb y) 0) (0 : Fin 1)))
              + asE (V c main_arg4 (ix1 k))) 0
          * asE (V c main_arg5 (ix2 k ((((cfg1.win 4).blk t).view.emb y) 1))))
      * asE (V c main_v15 (ix2 ((((cfg1.win 4).blk t).view.emb y) 0) (0 : Fin 1)))
  have h0 : ∀ k : Fin 64, ((cfg1.win 0).blk t).view.emb (ix2 (y 0) k) = ix2 ((((cfg1.win 4).blk t).view.emb y) 0) k := by
    intro k; funext a; apply Fin.ext
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 64 + 1 * k.val = k.val; omega
  have h1 : ((cfg1.win 1).blk t).view.emb (ix2 (y 0) (0 : Fin 1)) = ix2 ((((cfg1.win 4).blk t).view.emb y) 0) (0 : Fin 1) := by
    funext a; apply Fin.ext
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 1 + 1 * 0 = 0; omega
  have h2 : ∀ k : Fin 64, ((cfg1.win 2).blk t).view.emb (ix1 k) = ix1 k := by
    intro k; funext a; apply Fin.ext
    match a with
    | ⟨0, _⟩ => show win1_2.index t (0 : Fin 1) * 64 + 1 * k.val = k.val; omega
  have h3 : ∀ k : Fin 64, ((cfg1.win 3).blk t).view.emb (ix2 k (y 1)) = ix2 k ((((cfg1.win 4).blk t).view.emb y) 1) := by
    intro k; funext a; apply Fin.ext
    match a with
    | ⟨0, _⟩ => show win1_3.index t (0 : Fin 2) * 64 + 1 * k.val = k.val; omega
    | ⟨1, _⟩ => show win1_3.index t (1 : Fin 2) * 64 + 1 * (y 1).val = win1_4.index t (1 : Fin 2) * 64 + 1 * (y 1).val; omega
  rw [h1]
  refine congrArg (· * asE (V c main_v15 (ix2 ((((cfg1.win 4).blk t).view.emb y) 0) (0 : Fin 1)))) (Finset.sum_congr rfl fun k _ => ?_)
  rw [h0 k, h2 k, h3 k]
  all_goals rfl

/-- An index of the array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Every node row lies in the block of the point numbered by its row block. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  have hlt : (i 0).val / 5000 < cfg1.N := by show (i 0).val / 5000 < grid1.N; rw [hN]; omega
  have eRow : win1_4.index ⟨(i 0).val / 5000, hlt⟩ (0 : Fin 2) = (i 0).val / 5000 := (idx_facts ⟨(i 0).val / 5000, hlt⟩).2.2
  have eCol : win1_4.index ⟨(i 0).val / 5000, hlt⟩ (1 : Fin 2) = 0 := (idx_facts ⟨(i 0).val / 5000, hlt⟩).2.1
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    omega

/-- THE ARRAY after region 1, from the contents `V` the region is entered with. -/
theorem final (c : Dev nD) :
    (dat1 V c).arrAt 4 cfg1.N
      = preC (hmat (relu (postC (V c main_v27) (V c main_v15) (V c main_arg4))) (V c main_arg5)) (V c main_v15) :=
  (dat1 V c).arrAt_eq_of_cover 4 _ (fun t _ => flushed_eq V c t) cover

end Cert.KernelIdeal.Reg1

end
-- ==== Proof.KReg2.lean ====
/-
  Region 2 (layer 2's epilogue fused with layer 3's projection): over the grid of 20 row blocks of 5000 nodes, the output array ends holding, at node n and
  channel c, the sum over k of max (aggregate (n, k) · factor (n, 0) + bias k, 0) · W (k, c), times the factor at (n, 0):
  the previous layer's epilogue, its activation, this layer's projection and the source-side scaling in one pass.
  A block's element (r, c) at grid point t is the array's element (5000 t + r, c); the bias and the weights are whole
  at every point.
-/
import proofs.«150518_j66838281061050_2_alg».proof.Proof.Gen.KernelIdeal.Frame
import proofs.«150518_j66838281061050_2_alg».proof.Proof.KSpec
import proofs.«150518_j66838281061050_2_alg».proof.Proof.KMatmul
import proofs.«150518_j66838281061050_2_alg».proof.Proof.LibLayout
import Idealize.ShloMosaic.Lib.Pipeline.Value
import Idealize.ShloMosaic.Lib.ValueLayout

set_option maxRecDepth 16384

noncomputable section

open scoped BigOperators

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The zero word of a splat scalar is the extended real 0. -/
theorem szero : (Scalar.ofBits (F := Ideal) .f32 0x00000000#32 : EReal) = 0 := Ideal.ofBits_zero_f32

/-- The body's stored value at element (p, q) of a block. -/
theorem pay_coords (x0 : Vec Ideal S5000x64 .f32) (x1 : Vec Ideal S5000x1 .f32) (x2 : Vec Ideal S64 .f32) (x3 : Vec Ideal S64x24 .f32)
    (p : Fin 5000) (q : Fin 24) :
    k2_pay1 x0 x1 x2 x3 (ix2 p q)
      = (∑ k : Fin 64, max (x0 (ix2 p k) * x1 (ix2 p (0 : Fin 1)) + x2 (ix1 k)) 0 * x3 (ix2 k q)) * x1 (ix2 p (0 : Fin 1)) := by
  unfold k2_pay1
  show (matmul (F := Ideal) dot_S5000x64_S64x24_S5000x24_1_0_0_1_n_n none
          (truncf .bf16 (maximumf (addf (mulf (shapeCast S5000x64 x0 shapeCasts_S5000x64_S5000x64)
                (broadcastTo S5000x64 (shapeCast S5000x1 x1 shapeCasts_S5000x1_S5000x1) broadcasts_S5000x1_S5000x64))
              (broadcastTo S5000x64 (shapeCast S1x64 x2 shapeCasts_S64_S1x64) broadcasts_S1x64_S5000x64))
            (broadcast S5000x64 (Scalar.ofBits (F := Ideal) .f32 0x00000000#32))) bitsLt_bf16_f32)
          (truncf .bf16 x3 bitsLt_bf16_f32) (constant S5000x24 .f32 0x00000000#32)) (ix2 p q)
      * (broadcastTo S5000x24 (shapeCast S5000x1 x1 shapeCasts_S5000x1_S5000x1) broadcasts_S5000x1_S5000x24) (ix2 p q) = _
  rw [Mm.mmC_apply]
  simp only [truncf_apply, maximumf_apply, addf_apply, mulf_apply, broadcast_apply, shapeCast_self,
    Cert.LibLayout.broadcastTo_a1_ab_apply, broadcastTo_1b_ab_apply, shapeCast_a_1a_apply, szero]

theorem pay_apply (x0 : Vec Ideal S5000x64 .f32) (x1 : Vec Ideal S5000x1 .f32) (x2 : Vec Ideal S64 .f32) (x3 : Vec Ideal S64x24 .f32)
    (y : S5000x24.Idx) :
    k2_pay1 x0 x1 x2 x3 y
      = (∑ k : Fin 64, max (x0 (ix2 (y 0) k) * x1 (ix2 (y 0) (0 : Fin 1)) + x2 (ix1 k)) 0 * x3 (ix2 k (y 1)))
        * x1 (ix2 (y 0) (0 : Fin 1)) := by
  obtain ⟨p, q, rfl⟩ : ∃ (p : Fin 5000) (q : Fin 24), y = ix2 p q := ⟨y 0, y 1, eq_ix2 y⟩
  exact pay_coords x0 x1 x2 x3 p q

/-- The printed index maps over the grid: the aggregate and the column move with the output's row block; the bias and
    the weights stay. -/
theorem idx_facts : ∀ t : Fin cfg2.N, (win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 1) = 0
    ∧ win2_3.index t (0 : Fin 2) = 0
    ∧ win2_3.index t (1 : Fin 2) = 0)
    ∧ win2_4.index t (1 : Fin 2) = 0
    ∧ win2_4.index t (0 : Fin 2) = t.val :=
  (by decide +kernel : ∀ t : Fin grid2.N, _)

/-- WHAT POINT t WRITES BACK is block t of the layer's pre-scaled projection of the activated previous layer. -/
theorem flushed_eq (c : Dev nD) (t : Fin cfg2.N) :
    (dat2 V c).flushed 4 t
      = ((cfg2.win 4).blk t).view.read (Elt Ideal)
          (preC (hmat (relu (postC (V c main_v39) (V c main_v15) (V c main_arg6))) (V c main_arg7)) (V c main_v15)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S5000x1) hz2, View.ld_unit_zero (S := S64) hz1,
    View.ld_unit_zero (S := S64x24) hz2]
  obtain ⟨⟨e0, e1, e2, e3, e4, e5, e6⟩, e7, e8⟩ := idx_facts t
  funext y
  show k2_pay1 (iblk2 V c 0 t) (iblk2 V c 1 t) (iblk2 V c 2 t) (iblk2 V c 3 t) y
    = preC (hmat (relu (postC (V c main_v39) (V c main_v15) (V c main_arg6))) (V c main_arg7)) (V c main_v15)
        (((cfg2.win 4).blk t).view.emb y)
  refine (pay_apply (iblk2 V c 0 t) (iblk2 V c 1 t) (iblk2 V c 2 t) (iblk2 V c 3 t) y).trans ?_
  show (∑ k : Fin 64, max (asE (V c main_v39 (((cfg2.win 0).blk t).view.emb (ix2 (y 0) k)))
              * asE (V c main_v15 (((cfg2.win 1).blk t).view.emb (ix2 (y 0) (0 : Fin 1))))
              + asE (V c main_arg6 (((cfg2.win 2).blk t).view.emb (ix1 k)))) 0
          * asE (V c main_arg7 (((cfg2.win 3).blk t).view.emb (ix2 k (y 1)))))
      * asE (V c main_v15 (((cfg2.win 1).blk t).view.emb (ix2 (y 0) (0 : Fin 1))))
    = (∑ k : Fin 64, max (asE (V c main_v39 (ix2 ((((cfg2.win 4).blk t).view.emb y) 0) k))
              * asE (V c main_v15 (ix2 ((((cfg2.win 4).blk t).view.emb y) 0) (0 : Fin 1)))
              + asE (V c main_arg6 (ix1 k))) 0
          * asE (V c main_arg7 (ix2 k ((((cfg2.win 4).blk t).view.emb y) 1))))
      * asE (V c main_v15 (ix2 ((((cfg2.win 4).blk t).view.emb y) 0) (0 : Fin 1)))
  have h0 : ∀ k : Fin 64, ((cfg2.win 0).blk t).view.emb (ix2 (y 0) k) = ix2 ((((cfg2.win 4).blk t).view.emb y) 0) k := by
    intro k; funext a; apply Fin.ext
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 64 + 1 * k.val = k.val; omega
  have h1 : ((cfg2.win 1).blk t).view.emb (ix2 (y 0) (0 : Fin 1)) = ix2 ((((cfg2.win 4).blk t).view.emb y) 0) (0 : Fin 1) := by
    funext a; apply Fin.ext
    match a with
    | ⟨0, _⟩ => show win2_1.index t (0 : Fin 2) * 5000 + 1 * (y 0).val = win2_4.index t (0 : Fin 2) * 5000 + 1 * (y 0).val; omega
    | ⟨1, _⟩ => show win2_1.index t (1 : Fin 2) * 1 + 1 * 0 = 0; omega
  have h2 : ∀ k : Fin 64, ((cfg2.win 2).blk t).view.emb (ix1 k) = ix1 k := by
    intro k; funext a; apply Fin.ext
    match a with
    | ⟨0, _⟩ => show win2_2.index t (0 : Fin 1) * 64 + 1 * k.val = k.val; omega
  have h3 : ∀ k : Fin 64, ((cfg2.win 3).blk t).view.emb (ix2 k (y 1)) = ix2 k ((((cfg2.win 4).blk t).view.emb y) 1) := by
    intro k; funext a; apply Fin.ext
    match a with
    | ⟨0, _⟩ => show win2_3.index t (0 : Fin 2) * 64 + 1 * k.val = k.val; omega
    | ⟨1, _⟩ => show win2_3.index t (1 : Fin 2) * 24 + 1 * (y 1).val = win2_4.index t (1 : Fin 2) * 24 + 1 * (y 1).val; omega
  rw [h1]
  refine congrArg (· * asE (V c main_v15 (ix2 ((((cfg2.win 4).blk t).view.emb y) 0) (0 : Fin 1)))) (Finset.sum_congr rfl fun k _ => ?_)
  rw [h0 k, h2 k, h3 k]
  all_goals rfl

/-- An index of the array is in point t's block iff each coordinate is in the block's range on its axis. -/
theorem mem_blk (t : Fin cfg2.N) (i : S100000x24.Idx) :
    i ∈ ((cfg2.win 4).blk t).view.set ↔ ∀ a : Fin 2, win2_4.index t a * S5000x24.size a ≤ (i a).val
      ∧ (i a).val < win2_4.index t a * S5000x24.size a + S5000x24.size a := by
  show i ∈ ((View.whole main_v40).slice (win2_4.rect t)).set ↔ _
  rw [View.set_slice_whole, Rect.mem_set_unit]
  exact Iff.rfl

/-- Every node row lies in the block of the point numbered by its row block. -/
theorem cover (i : S100000x24.Idx) : ∃ t : Fin cfg2.N, (cfg2.win 4).flush t = true ∧ i ∈ ((cfg2.win 4).blk t).view.set := by
  have hi0 : (i 0).val < 100000 := (i 0).isLt
  have hi1 : (i 1).val < 24 := (i 1).isLt
  have hN : grid2.N = 20 := N_2
  have hlt : (i 0).val / 5000 < cfg2.N := by show (i 0).val / 5000 < grid2.N; rw [hN]; omega
  have eRow : win2_4.index ⟨(i 0).val / 5000, hlt⟩ (0 : Fin 2) = (i 0).val / 5000 := (idx_facts ⟨(i 0).val / 5000, hlt⟩).2.2
  have eCol : win2_4.index ⟨(i 0).val / 5000, hlt⟩ (1 : Fin 2) = 0 := (idx_facts ⟨(i 0).val / 5000, hlt⟩).2.1
  refine ⟨⟨(i 0).val / 5000, hlt⟩, flush2_4 _, ?_⟩
  rw [mem_blk]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    omega
  | ⟨1, _⟩ =>
    show win2_4.index ⟨(i 0).val / 5000, hlt⟩ (1 : Fin 2) * 24 ≤ (i 1).val
      ∧ (i 1).val < win2_4.index ⟨(i 0).val / 5000, hlt⟩ (1 : Fin 2) * 24 + 24
    omega

/-- THE ARRAY after region 2, from the contents `V` the region is entered with. -/
theorem final (c : Dev nD) :
    (dat2 V c).arrAt 4 cfg2.N
      = preC (hmat (relu (postC (V c main_v39) (V c main_v15) (V c main_arg6))) (V c main_arg7)) (V c main_v15) :=
  (dat2 V c).arrAt_eq_of_cover 4 _ (fun t _ => flushed_eq V c t) cover

end Cert.KernelIdeal.Reg2

end
-- ==== Proof.KReg3.lean ====
/-
  Region 3 (the last layer's epilogue): over the grid of 20 row blocks of 5000 nodes, the output array ends holding,
  at node n and channel c, the aggregate at (n, c) times the factor column at (n, 0) plus the bias at c.
  A block's element (r, c) at grid point t is the array's element (5000 t + r, c); the column window moves with
  the same rows and the bias window is the whole vector at every point.
-/
import proofs.«150518_j66838281061050_2_alg».proof.Proof.Gen.KernelIdeal.Frame
import proofs.«150518_j66838281061050_2_alg».proof.Proof.KSpec
import proofs.«150518_j66838281061050_2_alg».proof.Proof.LibLayout
import Idealize.ShloMosaic.Lib.Pipeline.Value
import Idealize.ShloMosaic.Lib.ValueLayout

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at element (r, c) of a block: the aggregate block at (r, c) times the column block at
    (r, 0), plus the bias at c. -/
theorem pay_apply (x0 : Vec Ideal S5000x24 .f32) (x1 : Vec Ideal S5000x1 .f32) (x2 : Vec Ideal S24 .f32) (y : S5000x24.Idx) :
    k3_pay1 x0 x1 x2 y = x0 y * x1 (ix2 (y 0) (0 : Fin 1)) + x2 (ix1 (y 1)) := by
  obtain ⟨p, q, rfl⟩ : ∃ (p : Fin 5000) (q : Fin 24), y = ix2 p q := ⟨y 0, y 1, eq_ix2 y⟩
  unfold k3_pay1
  show (shapeCast S5000x24 x0 shapeCasts_S5000x24_S5000x24) (ix2 p q)
      * (broadcastTo S5000x24 (shapeCast S5000x1 x1 shapeCasts_S5000x1_S5000x1) broadcasts_S5000x1_S5000x24) (ix2 p q)
      + (broadcastTo S5000x24 (shapeCast S1x24 x2 shapeCasts_S24_S1x24) broadcasts_S1x24_S5000x24) (ix2 p q) = _
  rw [shapeCast_self, shapeCast_self, Cert.LibLayout.broadcastTo_a1_ab_apply, broadcastTo_1b_ab_apply, shapeCast_a_1a_apply]

/-- The printed index maps over the grid: the aggregate and the column move with the output's row block, the bias stays. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 1) = 0
    ∧ win3_3.index t (1 : Fin 2) = 0
    ∧ win3_3.index t (0 : Fin 2) = t.val :=
  (by decide +kernel : ∀ t : Fin grid3.N, _)

/-- WHAT POINT t WRITES BACK is block t of `postC` of the arrays the region reads. -/
theorem flushed_eq (c : Dev nD) (t : Fin cfg3.N) :
    (dat3 V c).flushed 3 t
      = ((cfg3.win 3).blk t).view.read (Elt Ideal) (postC (V c main_v51) (V c main_v15) (V c main_arg8)) := by
  show (cfg3.win 3).cut (grid3.coords t) ((dat3 V c).after 3 t) = _
  rw [after3_3]
  unfold out3_3
  rw [View.canon_unit_zero hz2]
  simp only [View.ld_unit_zero (S := S5000x24) hz2, View.ld_unit_zero (S := S5000x1) hz2, View.ld_unit_zero (S := S24) hz1]
  obtain ⟨e0, e1, e2, e3, e4, e5, e6⟩ := idx_facts t
  funext y
  show k3_pay1 (iblk3 V c 0 t) (iblk3 V c 1 t) (iblk3 V c 2 t) y
    = postC (V c main_v51) (V c main_v15) (V c main_arg8) (((cfg3.win 3).blk t).view.emb y)
  refine (pay_apply (iblk3 V c 0 t) (iblk3 V c 1 t) (iblk3 V c 2 t) y).trans ?_
  show asE (V c main_v51 (((cfg3.win 0).blk t).view.emb y))
      * asE (V c main_v15 (((cfg3.win 1).blk t).view.emb (ix2 (y 0) (0 : Fin 1))))
      + asE (V c main_arg8 (((cfg3.win 2).blk t).view.emb (ix1 (y 1))))
    = asE (V c main_v51 (((cfg3.win 3).blk t).view.emb y))
      * asE (V c main_v15 (ix2 ((((cfg3.win 3).blk t).view.emb y) 0) (0 : Fin 1)))
      + asE (V c main_arg8 (ix1 ((((cfg3.win 3).blk t).view.emb y) 1)))
  have h0 : ((cfg3.win 0).blk t).view.emb y = ((cfg3.win 3).blk t).view.emb y := by
    funext a; apply Fin.ext
    match a with
    | ⟨0, _⟩ => show win3_0.index t (0 : Fin 2) * 5000 + 1 * (y 0).val = win3_3.index t (0 : Fin 2) * 5000 + 1 * (y 0).val; omega
    | ⟨1, _⟩ => show win3_0.index t (1 : Fin 2) * 24 + 1 * (y 1).val = win3_3.index t (1 : Fin 2) * 24 + 1 * (y 1).val; omega
  have h1 : ((cfg3.win 1).blk t).view.emb (ix2 (y 0) (0 : Fin 1)) = ix2 ((((cfg3.win 3).blk t).view.emb y) 0) (0 : Fin 1) := by
    funext a; apply Fin.ext
    match a with
    | ⟨0, _⟩ => show win3_1.index t (0 : Fin 2) * 5000 + 1 * (y 0).val = win3_3.index t (0 : Fin 2) * 5000 + 1 * (y 0).val; omega
    | ⟨1, _⟩ => show win3_1.index t (1 : Fin 2) * 1 + 1 * 0 = 0; omega
  have h2 : ((cfg3.win 2).blk t).view.emb (ix1 (y 1)) = ix1 ((((cfg3.win 3).blk t).view.emb y) 1) := by
    funext a; apply Fin.ext
    match a with
    | ⟨0, _⟩ => show win3_2.index t (0 : Fin 1) * 24 + 1 * (y 1).val = win3_3.index t (1 : Fin 2) * 24 + 1 * (y 1).val; omega
  rw [h0, h1, h2]
  rfl

/-- An index of the array is in point t's block iff each coordinate is in the block's range on its axis. -/
theorem mem_blk (t : Fin cfg3.N) (i : S100000x24.Idx) :
    i ∈ ((cfg3.win 3).blk t).view.set ↔ ∀ a : Fin 2, win3_3.index t a * S5000x24.size a ≤ (i a).val
      ∧ (i a).val < win3_3.index t a * S5000x24.size a + S5000x24.size a := by
  show i ∈ ((View.whole main_v52).slice (win3_3.rect t)).set ↔ _
  rw [View.set_slice_whole, Rect.mem_set_unit]
  exact Iff.rfl

/-- Every node row lies in the block of the point numbered by its row block. -/
theorem cover (i : S100000x24.Idx) : ∃ t : Fin cfg3.N, (cfg3.win 3).flush t = true ∧ i ∈ ((cfg3.win 3).blk t).view.set := by
  have hi0 : (i 0).val < 100000 := (i 0).isLt
  have hi1 : (i 1).val < 24 := (i 1).isLt
  have hN : grid3.N = 20 := N_3
  have hlt : (i 0).val / 5000 < cfg3.N := by show (i 0).val / 5000 < grid3.N; rw [hN]; omega
  obtain ⟨e0, e1, e2, e3, e4, e5, e6⟩ := idx_facts ⟨(i 0).val / 5000, hlt⟩
  refine ⟨⟨(i 0).val / 5000, hlt⟩, flush3_3 _, ?_⟩
  rw [mem_blk]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    have e6' : win3_3.index ⟨(i 0).val / 5000, hlt⟩ (0 : Fin 2) = (i 0).val / 5000 := e6
    omega
  | ⟨1, _⟩ =>
    show win3_3.index ⟨(i 0).val / 5000, hlt⟩ (1 : Fin 2) * 24 ≤ (i 1).val
      ∧ (i 1).val < win3_3.index ⟨(i 0).val / 5000, hlt⟩ (1 : Fin 2) * 24 + 24
    omega

/-- THE ARRAY after region 3, from the contents `V` the region is entered with. -/
theorem final (c : Dev nD) :
    (dat3 V c).arrAt 3 cfg3.N = postC (V c main_v51) (V c main_v15) (V c main_arg8) :=
  (dat3 V c).arrAt_eq_of_cover 3 _ (fun t _ => flushed_eq V c t) cover

end Cert.KernelIdeal.Reg3

end
-- ==== Proof.KFold.lean ====
/-
  The idealized kernel's result as a function of the launch memory.

  @main is eleven segments: three stretches of host operations that build the edge lists (with self loops), the degrees
  and the factor column; then, three times, a kernel region followed by the stretch that gathers its output along the
  edges and sums it into the target rows; the last region; and the pooling tail. At each boundary between segments this
  module says what the live buffers hold: the edge lists and the factor column never change once written, the weights
  and biases are as launched, each region's output array is the closed form of its region (the modules Reg0 … Reg3) of
  what it was entered with, and each aggregate is the gather / scatter-add of the region output before it.
-/
import proofs.«150518_j66838281061050_2_alg».proof.Proof.KReg0
import proofs.«150518_j66838281061050_2_alg».proof.Proof.KReg1
import proofs.«150518_j66838281061050_2_alg».proof.Proof.KReg2
import proofs.«150518_j66838281061050_2_alg».proof.Proof.KReg3
import proofs.«150518_j66838281061050_2_alg».proof.Proof.RefRead
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Gcn

/-- A stretch of host operations leaves a buffer none of its operations writes as it found it. -/
macro "keep_host " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The edge lists, the degrees and the per-node factor, as the kernel's own host code computes them -/

/-- The source endpoints: row 0 of the edge index, then one self loop per node. -/
def srcK (e : (⟨S2x1600000, .i32⟩ : BufTy).Contents (Elt Ideal)) : (⟨S1700000, .i32⟩ : BufTy).Contents (Elt Ideal) :=
  concatenate S1700000 0 [⟨S1600000, shapeCast _ (extractStridedSlice S1x1600000 ![0, 0] e slices_S2x1600000_S1x1600000_0_0) shapeCasts_S1x1600000_S1600000⟩,
    ⟨S100000, iotaInDim S100000 32 0⟩] concatenates_S1600000_S100000_S1700000_d0
/-- The target endpoints: row 1 of the edge index, then one self loop per node. -/
def dstK (e : (⟨S2x1600000, .i32⟩ : BufTy).Contents (Elt Ideal)) : (⟨S1700000, .i32⟩ : BufTy).Contents (Elt Ideal) :=
  concatenate S1700000 0 [⟨S1600000, shapeCast _ (extractStridedSlice S1x1600000 ![1, 0] e slices_S2x1600000_S1x1600000_1_0) shapeCasts_S1x1600000_S1600000⟩,
    ⟨S100000, iotaInDim S100000 32 0⟩] concatenates_S1600000_S100000_S1700000_d0
/-- The in-degrees: a one summed into each edge's target. -/
def degK (e : (⟨S2x1600000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant S_ .f32 0x00000000#32))
    (broadcastInDim S1700000x1 ![0] bcast_S1700000_S1700000x1_0 (dstK e))
    (broadcastInDim S1700000 ![] bcast_S_S1700000 (constant S_ .f32 0x3F800000#32))
/-- The per-node factor: the inverse square root of a positive degree, else 0. -/
def dvK (e : (⟨S2x1600000, .i32⟩ : BufTy).Contents (Elt Ideal)) : (⟨S100000, .f32⟩ : BufTy).Contents (Elt Ideal) :=
  select (cmpf (F := Ideal) .ogt (degK e) (broadcastInDim S100000 ![] bcast_S_S100000 (constant S_ .f32 0x00000000#32)))
    (Host.rsqrt (F := Ideal) (φ := .f32) (degK e))
    (broadcastInDim S100000 ![] bcast_S_S100000 (id (constant (F := Ideal) S_ .f32 0x00000000#32)))

/-- They are the reference's own stages for the same buffers: the same operations in the same order. -/
theorem srcK_eq (e : (⟨S2x1600000, .i32⟩ : BufTy).Contents (Elt Ideal)) : srcK e = Cert.ReferenceIdeal.ReadP.val_main_v3 (F := Ideal) e := by
  unfold srcK Cert.ReferenceIdeal.ReadP.val_main_v3 Cert.ReferenceIdeal.ReadP.val_main_v1 Cert.ReferenceIdeal.ReadP.val_main_v0 Cert.ReferenceIdeal.ReadP.val_main_v2
  rfl
theorem dstK_eq (e : (⟨S2x1600000, .i32⟩ : BufTy).Contents (Elt Ideal)) : dstK e = Cert.ReferenceIdeal.ReadP.val_main_v7 (F := Ideal) e := by
  unfold dstK Cert.ReferenceIdeal.ReadP.val_main_v7 Cert.ReferenceIdeal.ReadP.val_main_v5 Cert.ReferenceIdeal.ReadP.val_main_v4 Cert.ReferenceIdeal.ReadP.val_main_v6
  rfl
theorem degK_eq (e : (⟨S2x1600000, .i32⟩ : BufTy).Contents (Elt Ideal)) : degK e = Cert.ReferenceIdeal.ReadP.val_main_v11 (F := Ideal) e := by
  unfold degK Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_cst Cert.ReferenceIdeal.ReadP.val_main_cst_0
  rw [dstK_eq]
  rfl
theorem dvK_eq (e : (⟨S2x1600000, .i32⟩ : BufTy).Contents (Elt Ideal)) : dvK e = Cert.ReferenceIdeal.ReadP.val_main_v15 (F := Ideal) e := by
  unfold dvK Cert.ReferenceIdeal.ReadP.val_main_v15 Cert.ReferenceIdeal.ReadP.val_main_v13 Cert.ReferenceIdeal.ReadP.val_main_v14 Cert.ReferenceIdeal.ReadP.val_main_call0_v1 Cert.ReferenceIdeal.ReadP.val_main_call0_v0
    Cert.ReferenceIdeal.ReadP.val_main_v12 Cert.ReferenceIdeal.ReadP.val_main_cst_1 Cert.ReferenceIdeal.ReadP.val_main_cst_2
  rw [degK_eq]

/-! ## The pieces of host code between the regions, as functions -/

/-- The factor column: the per-node factor as an `[N, 1]` array. -/
def dcol : (⟨S100000x1, .f32⟩ : BufTy).Contents (Elt Ideal) :=
  broadcastInDim S100000x1 ![0] bcast_S100000_S100000x1_0 (dvK (m ((c : Thread nD τ).loc main_arg1)))

/-- Gather the rows of a 64-channel array at the source indices (negative ones wrapped), widen, and sum them into the
    rows named by the target indices. -/
def aggK64 (g : (⟨S100000x64, .bf16⟩ : BufTy).Contents (Elt Ideal)) (src dst : (⟨S1700000, .i32⟩ : BufTy).Contents (Elt Ideal)) :
    (⟨S100000x64, .f32⟩ : BufTy).Contents (Elt Ideal) :=
  Host.scatterAdd (F := Ideal) scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (extf .f32 (Host.gather gather_S100000x64_S1700000x1_S1700000x64_1_0_n_n_0_1_164 g
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

/-- The same for a 24-channel array. -/
def aggK24 (g : (⟨S100000x24, .bf16⟩ : BufTy).Contents (Elt Ideal)) (src dst : (⟨S1700000, .i32⟩ : BufTy).Contents (Elt Ideal)) :
    (⟨S100000x24, .f32⟩ : BufTy).Contents (Elt Ideal) :=
  Host.scatterAdd (F := Ideal) scatter_S100000x24_S1700000x1_S1700000x24_1_0_0_1
    (broadcastInDim S100000x24 ![] bcast_S_S100000x24 (constant S_ .f32 0x00000000#32))
    (broadcastInDim S1700000x1 ![0] bcast_S1700000_S1700000x1_0 dst)
    (extf .f32 (Host.gather gather_S100000x24_S1700000x1_S1700000x24_1_0_n_n_0_1_124 g
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src))) bitsLt_bf16_f32)

/-- The pooling tail: per-graph sums of the node outputs over the per-graph node counts (at least one), then tanh. -/
def tailK (y : (⟨S100000x24, .f32⟩ : BufTy).Contents (Elt Ideal)) (bt : (⟨S100000, .i32⟩ : BufTy).Contents (Elt Ideal)) :
    (⟨S64x24, .f32⟩ : BufTy).Contents (Elt Ideal) :=
  Host.tanh (F := Ideal) (Host.divf (F := Ideal)
    (Host.scatterAdd (F := Ideal) scatter_S64x24_S100000x1_S100000x24_1_0_0_1
      (broadcastInDim S64x24 ![] bcast_S_S64x24 (constant S_ .f32 0x00000000#32))
      (broadcastInDim S100000x1 ![0] bcast_S100000_S100000x1_0 bt) y)
    (broadcastInDim S64x24 ![0, 1] bcast_S64x1_S64x24_0_1 (broadcastInDim S64x1 ![0] bcast_S64_S64x1_0
      (maximumf (F := Ideal) (Host.scatterAdd (F := Ideal) scatter_S64_S100000x1_S100000_n_0_0_1
          (broadcastInDim S64 ![] bcast_S_S64 (constant S_ .f32 0x00000000#32))
          (broadcastInDim S100000x1 ![0] bcast_S100000_S100000x1_0 bt)
          (broadcastInDim S100000 ![] bcast_S_S100000 (constant S_ .f32 0x3F800000#32)))
        (broadcastInDim S64 ![] bcast_S_S64 (constant S_ .f32 0x3F800000#32))))))

/-! ## At region 0's entry: the edge lists, the factor column, the arguments -/

set_option maxHeartbeats 4000000 in
theorem W3_src : W3 m ρ c (Proc.devRef .tc main_v3) = (srcK (m ((c : Thread nD τ).loc main_arg1))) := by
  show StableHlo.after hostOps0_2 (StableHlo.after hostOps0_1 (StableHlo.after hostOps0 (W0 m ρ c))) (Proc.devRef .tc main_v3) = _
  dsimp only [hostOps0_2, hostOps0_1, hostOps0]
  after_results
  rfl
set_option maxHeartbeats 4000000 in
theorem W3_dst : W3 m ρ c (Proc.devRef .tc main_v6) = (dstK (m ((c : Thread nD τ).loc main_arg1))) := by
  show StableHlo.after hostOps0_2 (StableHlo.after hostOps0_1 (StableHlo.after hostOps0 (W0 m ρ c))) (Proc.devRef .tc main_v6) = _
  dsimp only [hostOps0_2, hostOps0_1, hostOps0]
  after_results
  rfl
/-- The second stretch (the select of the `where`) over any contents `U` of the buffers before it. -/
theorem where_stage (U : Valuation τ sig (Elt Ideal)) :
    StableHlo.after hostOps0_1 U (Proc.devRef .tc main_v14)
      = select (U (Proc.devRef .tc main_v12) : (⟨S100000, .i1⟩ : BufTy).Contents (Elt Ideal))
          (U (Proc.devRef .tc main_v13) : (⟨S100000, .f32⟩ : BufTy).Contents (Elt Ideal))
          (broadcastInDim S100000 ![] bcast_S_S100000 (id (U (Proc.devRef .tc main_cst_2) : (⟨S_, .f32⟩ : BufTy).Contents (Elt Ideal)))) := by
  dsimp only [hostOps0_1]
  after_results
  rfl
/-- The third stretch (the factor as a column) over any contents `U` before it. -/
theorem column_stage (U : Valuation τ sig (Elt Ideal)) :
    StableHlo.after hostOps0_2 U (Proc.devRef .tc main_v15)
      = broadcastInDim S100000x1 ![0] bcast_S100000_S100000x1_0 (U (Proc.devRef .tc main_v14) : (⟨S100000, .f32⟩ : BufTy).Contents (Elt Ideal)) := by
  dsimp only [hostOps0_2]
  after_results
set_option maxHeartbeats 4000000 in
theorem W1_pos : W1 m ρ c (Proc.devRef .tc main_v12)
    = cmpf (F := Ideal) .ogt (degK (m ((c : Thread nD τ).loc main_arg1))) (broadcastInDim S100000 ![] bcast_S_S100000 (constant S_ .f32 0x00000000#32)) := by
  show StableHlo.after hostOps0 (W0 m ρ c) (Proc.devRef .tc main_v12) = _
  dsimp only [hostOps0]
  after_results
  rfl
set_option maxHeartbeats 4000000 in
theorem W1_rsqrt : W1 m ρ c (Proc.devRef .tc main_v13) = Host.rsqrt (F := Ideal) (φ := .f32) (degK (m ((c : Thread nD τ).loc main_arg1))) := by
  show StableHlo.after hostOps0 (W0 m ρ c) (Proc.devRef .tc main_v13) = _
  dsimp only [hostOps0]
  after_results
  rfl
theorem W1_zero : W1 m ρ c (Proc.devRef .tc main_cst_2) = constant (F := Ideal) S_ .f32 0x00000000#32 := by
  show StableHlo.after hostOps0 (W0 m ρ c) (Proc.devRef .tc main_cst_2) = _
  dsimp only [hostOps0]
  after_results
theorem W3_dcol : W3 m ρ c (Proc.devRef .tc main_v15) = (dcol m c) := by
  show StableHlo.after hostOps0_2 (W2 m ρ c) (Proc.devRef .tc main_v15) = _
  rw [column_stage (W2 m ρ c)]
  show broadcastInDim S100000x1 ![0] bcast_S100000_S100000x1_0 (StableHlo.after hostOps0_1 (W1 m ρ c) (Proc.devRef .tc main_v14)) = _
  rw [where_stage (W1 m ρ c), W1_pos, W1_rsqrt, W1_zero]
  rfl
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  dsimp only [hostOps0_2, hostOps0_1, hostOps0]
  after_results
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  dsimp only [hostOps0_2, hostOps0_1, hostOps0]
  after_results
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  dsimp only [hostOps0_2, hostOps0_1, hostOps0]
  after_results
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  dsimp only [hostOps0_2, hostOps0_1, hostOps0]
  after_results
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  dsimp only [hostOps0_2, hostOps0_1, hostOps0]
  after_results
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  dsimp only [hostOps0_2, hostOps0_1, hostOps0]
  after_results
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  dsimp only [hostOps0_2, hostOps0_1, hostOps0]
  after_results
theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  dsimp only [hostOps0_2, hostOps0_1, hostOps0]
  after_results

/-! ## What no later segment writes stays: the edge lists, the factor column, the weights and biases -/

theorem W4_src : W4 m ρ c (Proc.devRef .tc main_v3) = (srcK (m ((c : Thread nD τ).loc main_arg1))) :=
  (W4_of_ne m ρ c main_v3 (by decide) : W4 m ρ c (Proc.devRef .tc main_v3) = W3 m ρ c (Proc.devRef .tc main_v3)).trans (W3_src m ρ c)
theorem W5_src : W5 m ρ c (Proc.devRef .tc main_v3) = (srcK (m ((c : Thread nD τ).loc main_arg1))) :=
  (by keep_host hostOps1 : W5 m ρ c (Proc.devRef .tc main_v3) = W4 m ρ c (Proc.devRef .tc main_v3)).trans (W4_src m ρ c)
theorem W6_src : W6 m ρ c (Proc.devRef .tc main_v3) = (srcK (m ((c : Thread nD τ).loc main_arg1))) :=
  (W6_of_ne m ρ c main_v3 (by decide) : W6 m ρ c (Proc.devRef .tc main_v3) = W5 m ρ c (Proc.devRef .tc main_v3)).trans (W5_src m ρ c)
theorem W7_src : W7 m ρ c (Proc.devRef .tc main_v3) = (srcK (m ((c : Thread nD τ).loc main_arg1))) :=
  (by keep_host hostOps2 : W7 m ρ c (Proc.devRef .tc main_v3) = W6 m ρ c (Proc.devRef .tc main_v3)).trans (W6_src m ρ c)
theorem W8_src : W8 m ρ c (Proc.devRef .tc main_v3) = (srcK (m ((c : Thread nD τ).loc main_arg1))) :=
  (W8_of_ne m ρ c main_v3 (by decide) : W8 m ρ c (Proc.devRef .tc main_v3) = W7 m ρ c (Proc.devRef .tc main_v3)).trans (W7_src m ρ c)
theorem W4_dst : W4 m ρ c (Proc.devRef .tc main_v6) = (dstK (m ((c : Thread nD τ).loc main_arg1))) :=
  (W4_of_ne m ρ c main_v6 (by decide) : W4 m ρ c (Proc.devRef .tc main_v6) = W3 m ρ c (Proc.devRef .tc main_v6)).trans (W3_dst m ρ c)
theorem W5_dst : W5 m ρ c (Proc.devRef .tc main_v6) = (dstK (m ((c : Thread nD τ).loc main_arg1))) :=
  (by keep_host hostOps1 : W5 m ρ c (Proc.devRef .tc main_v6) = W4 m ρ c (Proc.devRef .tc main_v6)).trans (W4_dst m ρ c)
theorem W6_dst : W6 m ρ c (Proc.devRef .tc main_v6) = (dstK (m ((c : Thread nD τ).loc main_arg1))) :=
  (W6_of_ne m ρ c main_v6 (by decide) : W6 m ρ c (Proc.devRef .tc main_v6) = W5 m ρ c (Proc.devRef .tc main_v6)).trans (W5_dst m ρ c)
theorem W7_dst : W7 m ρ c (Proc.devRef .tc main_v6) = (dstK (m ((c : Thread nD τ).loc main_arg1))) :=
  (by keep_host hostOps2 : W7 m ρ c (Proc.devRef .tc main_v6) = W6 m ρ c (Proc.devRef .tc main_v6)).trans (W6_dst m ρ c)
theorem W8_dst : W8 m ρ c (Proc.devRef .tc main_v6) = (dstK (m ((c : Thread nD τ).loc main_arg1))) :=
  (W8_of_ne m ρ c main_v6 (by decide) : W8 m ρ c (Proc.devRef .tc main_v6) = W7 m ρ c (Proc.devRef .tc main_v6)).trans (W7_dst m ρ c)
theorem W4_dcol : W4 m ρ c (Proc.devRef .tc main_v15) = (dcol m c) :=
  ((W4_arr m ρ c 2).trans (((dat0 (V3 m ρ) c).arrAt_in 2 rfl _).trans (A_eq0 (V3 m ρ) c 2)) : W4 m ρ c (Proc.devRef .tc main_v15) = W3 m ρ c (Proc.devRef .tc main_v15)).trans (W3_dcol m ρ c)
theorem W5_dcol : W5 m ρ c (Proc.devRef .tc main_v15) = (dcol m c) :=
  (by keep_host hostOps1 : W5 m ρ c (Proc.devRef .tc main_v15) = W4 m ρ c (Proc.devRef .tc main_v15)).trans (W4_dcol m ρ c)
theorem W6_dcol : W6 m ρ c (Proc.devRef .tc main_v15) = (dcol m c) :=
  ((W6_arr m ρ c 1).trans (((dat1 (V5 m ρ) c).arrAt_in 1 rfl _).trans (A_eq1 (V5 m ρ) c 1)) : W6 m ρ c (Proc.devRef .tc main_v15) = W5 m ρ c (Proc.devRef .tc main_v15)).trans (W5_dcol m ρ c)
theorem W7_dcol : W7 m ρ c (Proc.devRef .tc main_v15) = (dcol m c) :=
  (by keep_host hostOps2 : W7 m ρ c (Proc.devRef .tc main_v15) = W6 m ρ c (Proc.devRef .tc main_v15)).trans (W6_dcol m ρ c)
theorem W8_dcol : W8 m ρ c (Proc.devRef .tc main_v15) = (dcol m c) :=
  ((W8_arr m ρ c 1).trans (((dat2 (V7 m ρ) c).arrAt_in 1 rfl _).trans (A_eq2 (V7 m ρ) c 1)) : W8 m ρ c (Proc.devRef .tc main_v15) = W7 m ρ c (Proc.devRef .tc main_v15)).trans (W7_dcol m ρ c)
theorem W9_dcol : W9 m ρ c (Proc.devRef .tc main_v15) = (dcol m c) :=
  (by keep_host hostOps3 : W9 m ρ c (Proc.devRef .tc main_v15) = W8 m ρ c (Proc.devRef .tc main_v15)).trans (W8_dcol m ρ c)
theorem W4_arg4 : W4 m ρ c (Proc.devRef .tc main_arg4) = (m ((c : Thread nD τ).loc main_arg4)) :=
  (W4_of_ne m ρ c main_arg4 (by decide) : W4 m ρ c (Proc.devRef .tc main_arg4) = W3 m ρ c (Proc.devRef .tc main_arg4)).trans (W3_arg4 m ρ c)
theorem W5_arg4 : W5 m ρ c (Proc.devRef .tc main_arg4) = (m ((c : Thread nD τ).loc main_arg4)) :=
  (by keep_host hostOps1 : W5 m ρ c (Proc.devRef .tc main_arg4) = W4 m ρ c (Proc.devRef .tc main_arg4)).trans (W4_arg4 m ρ c)
theorem W4_arg5 : W4 m ρ c (Proc.devRef .tc main_arg5) = (m ((c : Thread nD τ).loc main_arg5)) :=
  (W4_of_ne m ρ c main_arg5 (by decide) : W4 m ρ c (Proc.devRef .tc main_arg5) = W3 m ρ c (Proc.devRef .tc main_arg5)).trans (W3_arg5 m ρ c)
theorem W5_arg5 : W5 m ρ c (Proc.devRef .tc main_arg5) = (m ((c : Thread nD τ).loc main_arg5)) :=
  (by keep_host hostOps1 : W5 m ρ c (Proc.devRef .tc main_arg5) = W4 m ρ c (Proc.devRef .tc main_arg5)).trans (W4_arg5 m ρ c)
theorem W4_arg6 : W4 m ρ c (Proc.devRef .tc main_arg6) = (m ((c : Thread nD τ).loc main_arg6)) :=
  (W4_of_ne m ρ c main_arg6 (by decide) : W4 m ρ c (Proc.devRef .tc main_arg6) = W3 m ρ c (Proc.devRef .tc main_arg6)).trans (W3_arg6 m ρ c)
theorem W5_arg6 : W5 m ρ c (Proc.devRef .tc main_arg6) = (m ((c : Thread nD τ).loc main_arg6)) :=
  (by keep_host hostOps1 : W5 m ρ c (Proc.devRef .tc main_arg6) = W4 m ρ c (Proc.devRef .tc main_arg6)).trans (W4_arg6 m ρ c)
theorem W6_arg6 : W6 m ρ c (Proc.devRef .tc main_arg6) = (m ((c : Thread nD τ).loc main_arg6)) :=
  (W6_of_ne m ρ c main_arg6 (by decide) : W6 m ρ c (Proc.devRef .tc main_arg6) = W5 m ρ c (Proc.devRef .tc main_arg6)).trans (W5_arg6 m ρ c)
theorem W7_arg6 : W7 m ρ c (Proc.devRef .tc main_arg6) = (m ((c : Thread nD τ).loc main_arg6)) :=
  (by keep_host hostOps2 : W7 m ρ c (Proc.devRef .tc main_arg6) = W6 m ρ c (Proc.devRef .tc main_arg6)).trans (W6_arg6 m ρ c)
theorem W4_arg7 : W4 m ρ c (Proc.devRef .tc main_arg7) = (m ((c : Thread nD τ).loc main_arg7)) :=
  (W4_of_ne m ρ c main_arg7 (by decide) : W4 m ρ c (Proc.devRef .tc main_arg7) = W3 m ρ c (Proc.devRef .tc main_arg7)).trans (W3_arg7 m ρ c)
theorem W5_arg7 : W5 m ρ c (Proc.devRef .tc main_arg7) = (m ((c : Thread nD τ).loc main_arg7)) :=
  (by keep_host hostOps1 : W5 m ρ c (Proc.devRef .tc main_arg7) = W4 m ρ c (Proc.devRef .tc main_arg7)).trans (W4_arg7 m ρ c)
theorem W6_arg7 : W6 m ρ c (Proc.devRef .tc main_arg7) = (m ((c : Thread nD τ).loc main_arg7)) :=
  (W6_of_ne m ρ c main_arg7 (by decide) : W6 m ρ c (Proc.devRef .tc main_arg7) = W5 m ρ c (Proc.devRef .tc main_arg7)).trans (W5_arg7 m ρ c)
theorem W7_arg7 : W7 m ρ c (Proc.devRef .tc main_arg7) = (m ((c : Thread nD τ).loc main_arg7)) :=
  (by keep_host hostOps2 : W7 m ρ c (Proc.devRef .tc main_arg7) = W6 m ρ c (Proc.devRef .tc main_arg7)).trans (W6_arg7 m ρ c)
theorem W4_arg8 : W4 m ρ c (Proc.devRef .tc main_arg8) = (m ((c : Thread nD τ).loc main_arg8)) :=
  (W4_of_ne m ρ c main_arg8 (by decide) : W4 m ρ c (Proc.devRef .tc main_arg8) = W3 m ρ c (Proc.devRef .tc main_arg8)).trans (W3_arg8 m ρ c)
theorem W5_arg8 : W5 m ρ c (Proc.devRef .tc main_arg8) = (m ((c : Thread nD τ).loc main_arg8)) :=
  (by keep_host hostOps1 : W5 m ρ c (Proc.devRef .tc main_arg8) = W4 m ρ c (Proc.devRef .tc main_arg8)).trans (W4_arg8 m ρ c)
theorem W6_arg8 : W6 m ρ c (Proc.devRef .tc main_arg8) = (m ((c : Thread nD τ).loc main_arg8)) :=
  (W6_of_ne m ρ c main_arg8 (by decide) : W6 m ρ c (Proc.devRef .tc main_arg8) = W5 m ρ c (Proc.devRef .tc main_arg8)).trans (W5_arg8 m ρ c)
theorem W7_arg8 : W7 m ρ c (Proc.devRef .tc main_arg8) = (m ((c : Thread nD τ).loc main_arg8)) :=
  (by keep_host hostOps2 : W7 m ρ c (Proc.devRef .tc main_arg8) = W6 m ρ c (Proc.devRef .tc main_arg8)).trans (W6_arg8 m ρ c)
theorem W8_arg8 : W8 m ρ c (Proc.devRef .tc main_arg8) = (m ((c : Thread nD τ).loc main_arg8)) :=
  (W8_of_ne m ρ c main_arg8 (by decide) : W8 m ρ c (Proc.devRef .tc main_arg8) = W7 m ρ c (Proc.devRef .tc main_arg8)).trans (W7_arg8 m ρ c)
theorem W9_arg8 : W9 m ρ c (Proc.devRef .tc main_arg8) = (m ((c : Thread nD τ).loc main_arg8)) :=
  (by keep_host hostOps3 : W9 m ρ c (Proc.devRef .tc main_arg8) = W8 m ρ c (Proc.devRef .tc main_arg8)).trans (W8_arg8 m ρ c)
theorem W4_arg2 : W4 m ρ c (Proc.devRef .tc main_arg2) = (m ((c : Thread nD τ).loc main_arg2)) :=
  (W4_of_ne m ρ c main_arg2 (by decide) : W4 m ρ c (Proc.devRef .tc main_arg2) = W3 m ρ c (Proc.devRef .tc main_arg2)).trans (W3_arg2 m ρ c)
theorem W5_arg2 : W5 m ρ c (Proc.devRef .tc main_arg2) = (m ((c : Thread nD τ).loc main_arg2)) :=
  (by keep_host hostOps1 : W5 m ρ c (Proc.devRef .tc main_arg2) = W4 m ρ c (Proc.devRef .tc main_arg2)).trans (W4_arg2 m ρ c)
theorem W6_arg2 : W6 m ρ c (Proc.devRef .tc main_arg2) = (m ((c : Thread nD τ).loc main_arg2)) :=
  (W6_of_ne m ρ c main_arg2 (by decide) : W6 m ρ c (Proc.devRef .tc main_arg2) = W5 m ρ c (Proc.devRef .tc main_arg2)).trans (W5_arg2 m ρ c)
theorem W7_arg2 : W7 m ρ c (Proc.devRef .tc main_arg2) = (m ((c : Thread nD τ).loc main_arg2)) :=
  (by keep_host hostOps2 : W7 m ρ c (Proc.devRef .tc main_arg2) = W6 m ρ c (Proc.devRef .tc main_arg2)).trans (W6_arg2 m ρ c)
theorem W8_arg2 : W8 m ρ c (Proc.devRef .tc main_arg2) = (m ((c : Thread nD τ).loc main_arg2)) :=
  (W8_of_ne m ρ c main_arg2 (by decide) : W8 m ρ c (Proc.devRef .tc main_arg2) = W7 m ρ c (Proc.devRef .tc main_arg2)).trans (W7_arg2 m ρ c)
theorem W9_arg2 : W9 m ρ c (Proc.devRef .tc main_arg2) = (m ((c : Thread nD τ).loc main_arg2)) :=
  (by keep_host hostOps3 : W9 m ρ c (Proc.devRef .tc main_arg2) = W8 m ρ c (Proc.devRef .tc main_arg2)).trans (W8_arg2 m ρ c)
theorem W10_arg2 : W10 m ρ c (Proc.devRef .tc main_arg2) = (m ((c : Thread nD τ).loc main_arg2)) :=
  (W10_of_ne m ρ c main_arg2 (by decide) : W10 m ρ c (Proc.devRef .tc main_arg2) = W9 m ρ c (Proc.devRef .tc main_arg2)).trans (W9_arg2 m ρ c)

/-! ## The regions' outputs and the aggregates, one after the other -/

/-- Layer 1's projection, pre-scaled: region 0's output. -/
def g1 : (⟨S100000x64, .bf16⟩ : BufTy).Contents (Elt Ideal) :=
  preC (N := 100000) (C := 64) (hmat (N := 100000) (K := 3) (C := 64) (m ((c : Thread nD τ).loc main_arg0)) (m ((c : Thread nD τ).loc main_arg3))) (dcol m c)
/-- Its aggregate along the edges. -/
def a1 : (⟨S100000x64, .f32⟩ : BufTy).Contents (Elt Ideal) := aggK64 (g1 m c) (srcK (m ((c : Thread nD τ).loc main_arg1))) (dstK (m ((c : Thread nD τ).loc main_arg1)))
/-- Layer 2's projection of the activated layer 1, pre-scaled: region 1's output. -/
def g2 : (⟨S100000x64, .bf16⟩ : BufTy).Contents (Elt Ideal) :=
  preC (N := 100000) (C := 64) (hmat (N := 100000) (K := 64) (C := 64) (relu (postC (N := 100000) (C := 64) (a1 m c) (dcol m c) (m ((c : Thread nD τ).loc main_arg4)))) (m ((c : Thread nD τ).loc main_arg5))) (dcol m c)
def a2 : (⟨S100000x64, .f32⟩ : BufTy).Contents (Elt Ideal) := aggK64 (g2 m c) (srcK (m ((c : Thread nD τ).loc main_arg1))) (dstK (m ((c : Thread nD τ).loc main_arg1)))
/-- Layer 3's projection of the activated layer 2, pre-scaled: region 2's output. -/
def g3 : (⟨S100000x24, .bf16⟩ : BufTy).Contents (Elt Ideal) :=
  preC (N := 100000) (C := 24) (hmat (N := 100000) (K := 64) (C := 24) (relu (postC (N := 100000) (C := 64) (a2 m c) (dcol m c) (m ((c : Thread nD τ).loc main_arg6)))) (m ((c : Thread nD τ).loc main_arg7))) (dcol m c)
def a3 : (⟨S100000x24, .f32⟩ : BufTy).Contents (Elt Ideal) := aggK24 (g3 m c) (srcK (m ((c : Thread nD τ).loc main_arg1))) (dstK (m ((c : Thread nD τ).loc main_arg1)))
/-- The node outputs: region 3's output. -/
def yK : (⟨S100000x24, .f32⟩ : BufTy).Contents (Elt Ideal) := postC (N := 100000) (C := 24) (a3 m c) (dcol m c) (m ((c : Thread nD τ).loc main_arg8))

theorem W4_g1 : W4 m ρ c (Proc.devRef .tc main_v16) = g1 m c := by
  refine (W4_arr m ρ c 3).trans ((Reg0.final (V3 m ρ) c).trans ?_)
  show preC (hmat (W3 m ρ c (Proc.devRef .tc main_arg0)) (W3 m ρ c (Proc.devRef .tc main_arg3))) (W3 m ρ c (Proc.devRef .tc main_v15)) = _
  rw [W3_arg0, W3_arg3, W3_dcol]
  rfl

set_option maxHeartbeats 4000000 in
theorem W5_a1 : W5 m ρ c (Proc.devRef .tc main_v27) = a1 m c := by
  have h : W5 m ρ c (Proc.devRef .tc main_v27) = aggK64 (W4 m ρ c (Proc.devRef .tc main_v16)) (W4 m ρ c (Proc.devRef .tc main_v3)) (W4 m ρ c (Proc.devRef .tc main_v6)) := by
    show StableHlo.after hostOps1 (W4 m ρ c) (Proc.devRef .tc main_v27) = _
    dsimp only [hostOps1]
    after_results
    rfl
  rw [h, W4_g1, W4_src, W4_dst]
  rfl

theorem W6_g2 : W6 m ρ c (Proc.devRef .tc main_v28) = g2 m c := by
  refine (W6_arr m ρ c 4).trans ((Reg1.final (V5 m ρ) c).trans ?_)
  show preC (hmat (relu (postC (W5 m ρ c (Proc.devRef .tc main_v27)) (W5 m ρ c (Proc.devRef .tc main_v15)) (W5 m ρ c (Proc.devRef .tc main_arg4))))
      (W5 m ρ c (Proc.devRef .tc main_arg5))) (W5 m ρ c (Proc.devRef .tc main_v15)) = _
  rw [W5_a1, W5_dcol, W5_arg4, W5_arg5]
  rfl

set_option maxHeartbeats 4000000 in
theorem W7_a2 : W7 m ρ c (Proc.devRef .tc main_v39) = a2 m c := by
  have h : W7 m ρ c (Proc.devRef .tc main_v39) = aggK64 (W6 m ρ c (Proc.devRef .tc main_v28)) (W6 m ρ c (Proc.devRef .tc main_v3)) (W6 m ρ c (Proc.devRef .tc main_v6)) := by
    show StableHlo.after hostOps2 (W6 m ρ c) (Proc.devRef .tc main_v39) = _
    dsimp only [hostOps2]
    after_results
    rfl
  rw [h, W6_g2, W6_src, W6_dst]
  rfl

theorem W8_g3 : W8 m ρ c (Proc.devRef .tc main_v40) = g3 m c := by
  refine (W8_arr m ρ c 4).trans ((Reg2.final (V7 m ρ) c).trans ?_)
  show preC (hmat (relu (postC (W7 m ρ c (Proc.devRef .tc main_v39)) (W7 m ρ c (Proc.devRef .tc main_v15)) (W7 m ρ c (Proc.devRef .tc main_arg6))))
      (W7 m ρ c (Proc.devRef .tc main_arg7))) (W7 m ρ c (Proc.devRef .tc main_v15)) = _
  rw [W7_a2, W7_dcol, W7_arg6, W7_arg7]
  rfl

set_option maxHeartbeats 4000000 in
theorem W9_a3 : W9 m ρ c (Proc.devRef .tc main_v51) = a3 m c := by
  have h : W9 m ρ c (Proc.devRef .tc main_v51) = aggK24 (W8 m ρ c (Proc.devRef .tc main_v40)) (W8 m ρ c (Proc.devRef .tc main_v3)) (W8 m ρ c (Proc.devRef .tc main_v6)) := by
    show StableHlo.after hostOps3 (W8 m ρ c) (Proc.devRef .tc main_v51) = _
    dsimp only [hostOps3]
    after_results
    rfl
  rw [h, W8_g3, W8_src, W8_dst]
  rfl

theorem W10_y : W10 m ρ c (Proc.devRef .tc main_v52) = yK m c := by
  refine (W10_arr m ρ c 3).trans ((Reg3.final (V9 m ρ) c).trans ?_)
  show postC (W9 m ρ c (Proc.devRef .tc main_v51)) (W9 m ρ c (Proc.devRef .tc main_v15)) (W9 m ρ c (Proc.devRef .tc main_arg8)) = _
  rw [W9_a3, W9_dcol, W9_arg8]
  rfl

set_option maxHeartbeats 4000000 in
/-- THE RESULT buffer after the run: the pooling tail of the node outputs and the graph ids as launched. -/
theorem result : W11 m ρ c (Proc.devRef .tc main_v65) = tailK (yK m c) (m ((c : Thread nD τ).loc main_arg2)) := by
  have h : W11 m ρ c (Proc.devRef .tc main_v65) = tailK (W10 m ρ c (Proc.devRef .tc main_v52)) (W10 m ρ c (Proc.devRef .tc main_arg2)) := by
    show StableHlo.after hostOps4 (W10 m ρ c) (Proc.devRef .tc main_v65) = _
    dsimp only [hostOps4]
    after_results
    unfold tailK
    rfl
  rw [h, W10_y, W10_arg2]

/-! ## The node outputs in the vocabulary of the layers -/

/-- The factor column at row n is the factor of node n. -/
theorem dcol_apply (n : Fin 100000) : dcol m c (ix2 n (0 : Fin 1)) = (Cert.ReferenceIdeal.ReadP.val_main_v15 (F := Ideal) (m ((c : Thread nD τ).loc main_arg1))) (ix1 n) := by
  unfold dcol
  rw [dvK_eq]
  generalize (Cert.ReferenceIdeal.ReadP.val_main_v15 (F := Ideal) (m ((c : Thread nD τ).loc main_arg1))) = d
  exact broadcastInDim_apply _ bcast_S100000_S100000x1_0 d (ix2 n (0 : Fin 1)) (ix1 n) (fun a => by
    match a with
    | ⟨0, _⟩ => rfl)

/-- The host's zero array is the constant function 0. -/
theorem zeros64 : broadcastInDim S100000x64 ![] bcast_S_S100000x64 (constant (F := Ideal) S_ .f32 0x00000000#32) = fun _ => (0 : EReal) := by
  funext i
  exact (broadcastInDim_apply _ bcast_S_S100000x64 _ i (fun a => a.elim0) (fun a => a.elim0)).trans Ideal.ofBits_zero_f32
theorem zeros24 : broadcastInDim S100000x24 ![] bcast_S_S100000x24 (constant (F := Ideal) S_ .f32 0x00000000#32) = fun _ => (0 : EReal) := by
  funext i
  exact (broadcastInDim_apply _ bcast_S_S100000x24 _ i (fun a => a.elim0) (fun a => a.elim0)).trans Ideal.ofBits_zero_f32

/-- The source indices as gathered (negative ones wrapped, as a column) and the target indices as scattered (as a
    column) are the reference's stages for them. -/
theorem si_eq (s : (⟨S1700000, .i32⟩ : BufTy).Contents (Elt Ideal)) (e : (⟨S2x1600000, .i32⟩ : BufTy).Contents (Elt Ideal))
    (hs : s = Cert.ReferenceIdeal.ReadP.val_main_v3 (F := Ideal) e) :
    broadcastInDim S1700000x1 ![0] bcast_S1700000_S1700000x1_0
        (select (cmpi .slt s (broadcastInDim S1700000 ![] bcast_S_S1700000 (constantI S_ 32 0#32)))
          (addi s (broadcastInDim S1700000 ![] bcast_S_S1700000 (constantI S_ 32 100000#32))) s)
      = Cert.ReferenceIdeal.ReadP.val_main_v37 (F := Ideal) e := by
  unfold Cert.ReferenceIdeal.ReadP.val_main_v37 Cert.ReferenceIdeal.ReadP.val_main_v36 Cert.ReferenceIdeal.ReadP.val_main_v33 Cert.ReferenceIdeal.ReadP.val_main_v35 Cert.ReferenceIdeal.ReadP.val_main_v32 Cert.ReferenceIdeal.ReadP.val_main_v34
    Cert.ReferenceIdeal.ReadP.val_main_c_6 Cert.ReferenceIdeal.ReadP.val_main_c_7
  rw [← hs]
theorem di_eq (d : (⟨S1700000, .i32⟩ : BufTy).Contents (Elt Ideal)) (e : (⟨S2x1600000, .i32⟩ : BufTy).Contents (Elt Ideal))
    (hd : d = Cert.ReferenceIdeal.ReadP.val_main_v7 (F := Ideal) e) :
    broadcastInDim S1700000x1 ![0] bcast_S1700000_S1700000x1_0 d = Cert.ReferenceIdeal.ReadP.val_main_v43 (F := Ideal) e := by
  unfold Cert.ReferenceIdeal.ReadP.val_main_v43
  rw [← hd]

/-- An aggregation stretch is `agg` at those two index columns. -/
theorem aggK64_eq (g : (⟨S100000x64, .bf16⟩ : BufTy).Contents (Elt Ideal)) (e : (⟨S2x1600000, .i32⟩ : BufTy).Contents (Elt Ideal)) :
    aggK64 g (srcK e) (dstK e)
      = agg scatter_S100000x64_S1700000x1_S1700000x64_1_0_0_1_wf gather_S100000x64_S1700000x1_S1700000x64_1_0_n_n_0_1_164_wf g
          (Cert.ReferenceIdeal.ReadP.val_main_v37 (F := Ideal) e) (Cert.ReferenceIdeal.ReadP.val_main_v43 (F := Ideal) e) := by
  unfold aggK64 agg
  rw [zeros64, si_eq (srcK e) e (srcK_eq e), di_eq (dstK e) e (dstK_eq e)]
  generalize Cert.ReferenceIdeal.ReadP.val_main_v37 (F := Ideal) e = si
  generalize Cert.ReferenceIdeal.ReadP.val_main_v43 (F := Ideal) e = di
  rfl
theorem aggK24_eq (g : (⟨S100000x24, .bf16⟩ : BufTy).Contents (Elt Ideal)) (e : (⟨S2x1600000, .i32⟩ : BufTy).Contents (Elt Ideal)) :
    aggK24 g (srcK e) (dstK e)
      = agg scatter_S100000x24_S1700000x1_S1700000x24_1_0_0_1_wf gather_S100000x24_S1700000x1_S1700000x24_1_0_n_n_0_1_124_wf g
          (Cert.ReferenceIdeal.ReadP.val_main_v37 (F := Ideal) e) (Cert.ReferenceIdeal.ReadP.val_main_v43 (F := Ideal) e) := by
  unfold aggK24 agg
  rw [zeros24, si_eq (srcK e) e (srcK_eq e), di_eq (dstK e) e (dstK_eq e)]
  generalize Cert.ReferenceIdeal.ReadP.val_main_v37 (F := Ideal) e = si
  generalize Cert.ReferenceIdeal.ReadP.val_main_v43 (F := Ideal) e = di
  rfl

/-- THE NODE OUTPUTS are the three layers of the specification at the per-node factor, the source indices and the
    target indices the reference itself computes. -/
theorem yK_eq : yK m c
    = layerOut scatter_S100000x24_S1700000x1_S1700000x24_1_0_0_1_wf gather_S100000x24_S1700000x1_S1700000x24_1_0_n_n_0_1_124_wf
        (relu (layerOut scatter_S100000x64_S1700000x1_S1700000x64_1_0_0_1_wf gather_S100000x64_S1700000x1_S1700000x64_1_0_n_n_0_1_164_wf
          (relu (layerOut scatter_S100000x64_S1700000x1_S1700000x64_1_0_0_1_wf gather_S100000x64_S1700000x1_S1700000x64_1_0_n_n_0_1_164_wf
            (m ((c : Thread nD τ).loc main_arg0)) (m ((c : Thread nD τ).loc main_arg3)) (Cert.ReferenceIdeal.ReadP.val_main_v15 (F := Ideal) (m ((c : Thread nD τ).loc main_arg1))) (Cert.ReferenceIdeal.ReadP.val_main_v37 (F := Ideal) (m ((c : Thread nD τ).loc main_arg1))) (Cert.ReferenceIdeal.ReadP.val_main_v43 (F := Ideal) (m ((c : Thread nD τ).loc main_arg1))) (m ((c : Thread nD τ).loc main_arg4))))
          (m ((c : Thread nD τ).loc main_arg5)) (Cert.ReferenceIdeal.ReadP.val_main_v15 (F := Ideal) (m ((c : Thread nD τ).loc main_arg1))) (Cert.ReferenceIdeal.ReadP.val_main_v37 (F := Ideal) (m ((c : Thread nD τ).loc main_arg1))) (Cert.ReferenceIdeal.ReadP.val_main_v43 (F := Ideal) (m ((c : Thread nD τ).loc main_arg1))) (m ((c : Thread nD τ).loc main_arg6))))
        (m ((c : Thread nD τ).loc main_arg7)) (Cert.ReferenceIdeal.ReadP.val_main_v15 (F := Ideal) (m ((c : Thread nD τ).loc main_arg1))) (Cert.ReferenceIdeal.ReadP.val_main_v37 (F := Ideal) (m ((c : Thread nD τ).loc main_arg1))) (Cert.ReferenceIdeal.ReadP.val_main_v43 (F := Ideal) (m ((c : Thread nD τ).loc main_arg1))) (m ((c : Thread nD τ).loc main_arg8)) := by
  unfold yK a3 g3 a2 g2 a1 g1 layerOut
  rw [aggK24_eq, aggK64_eq, aggK64_eq]
  simp only [preC_eq_pre _ _ (Cert.ReferenceIdeal.ReadP.val_main_v15 (F := Ideal) (m ((c : Thread nD τ).loc main_arg1))) (dcol_apply m c), postC_eq_post _ _ (Cert.ReferenceIdeal.ReadP.val_main_v15 (F := Ideal) (m ((c : Thread nD τ).loc main_arg1))) _ (dcol_apply m c)]

end Cert.KernelIdeal.Fold

end
-- ==== Proof.LibCoords.lean ====
/-
  Reading an array at coordinates.

  An index of a rank-2 array is determined by its two coordinates, and of a rank-1 array by its one coordinate.
  `at2 f a b` and `at1 f a` name the value of `f` at the index with those coordinates, and `at2_eq` / `at1_eq` say that
  `f` at ANY index is `at2 f` / `at1 f` of that index's coordinates. Rewriting with them turns an equation between values
  read at two differently written indices into an equation between their coordinates, which are numbers below literal
  bounds and compare by evaluation.
-/
import Idealize.ShloMosaic.Lib.ValueIdx

namespace Cert.Lib

open Idealize.ShloMosaic Idealize.ShloMosaic.ValueIdx

variable {α : Type}

/-- The value of a rank-2 array at the index with coordinates `a`, `b`. -/
def at2 {n0 n1 : ℕ} (f : (⟨2, ![n0, n1]⟩ : Shape).Idx → α) (a : Fin n0) (b : Fin n1) : α := f (ix2 a b)
/-- The value of a rank-1 array at the index with coordinate `a`. -/
def at1 {n : ℕ} (f : (⟨1, ![n]⟩ : Shape).Idx → α) (a : Fin n) : α := f (ix1 a)
/-- A rank-2 array at an index is the array at that index's two coordinates. -/
theorem at2_eq {n0 n1 : ℕ} (f : (⟨2, ![n0, n1]⟩ : Shape).Idx → α) (i : (⟨2, ![n0, n1]⟩ : Shape).Idx) :
    f i = at2 f (i 0) (i 1) := congrArg f (eq_ix2 i)
/-- A rank-1 array at an index is the array at that index's coordinate. -/
theorem at1_eq {n : ℕ} (f : (⟨1, ![n]⟩ : Shape).Idx → α) (i : (⟨1, ![n]⟩ : Shape).Idx) :
    f i = at1 f (i 0) := congrArg f (eq_ix1 i)

end Cert.Lib
-- ==== Proof.RefValue.lean ====
/-
  The reference program's three graph-convolution layers, read as values over the extended reals.

  The program computes, once, the per-node factor dinv n = 1 / sqrt (deg n) where the degree is positive and 0
  elsewhere, and then three times

      out = segment_sum (h[src] * (dinv[src] * dinv[dst])[:, None], dst) + b,     h = x @ W,

  with the positive part taken between the layers. Here each layer's output buffer is shown to be `layerOut` of the
  layer's input: the projected features scaled by the SOURCE node's factor, summed along the edges into the target
  nodes, scaled by the TARGET node's factor, plus the bias.

  Two facts about the index arithmetic carry the layer law (`Cert.Gcn.agg_norm`):

  * `dv_ok`: every dinv n is non-negative and not +∞. It is either 0 or the inverse square root of a positive degree.
  * `dw_ok`: the message of edge e lands on node n exactly when the target index of e, read signed, is the number n;
    such an index is not negative, so the wrap-around applied to negative indices before dinv is gathered at the target
    leaves it alone, and the gather reads dinv at n itself.
-/
import proofs.«150518_j66838281061050_2_alg».proof.Proof.RefRead
import proofs.«150518_j66838281061050_2_alg».proof.Proof.Layer
import proofs.«150518_j66838281061050_2_alg».proof.Proof.LibCoords
import Idealize.ShloMosaic.Lib.Pipeline.Value
import Idealize.ShloMosaic.PureOps.Ideal.Laws

noncomputable section

open scoped BigOperators

namespace Cert.ReferenceIdeal.RefValue

open Cert.ReferenceIdeal Cert.ReferenceIdeal.ReadP Cert.Gcn Cert.LibRows Idealize.ShloMosaic
    Idealize.ShloMosaic.ValueIdx

/-- The f32 word of all zero bits is the extended real 0. -/
theorem zero_word : FloatOps.ofBits (F := Ideal) .f32 0x00000000#32 = (0 : EReal) := Ideal.ofBits_zero_f32

/-! ## The per-node factor -/

/-- dinv at node n, in terms of the degree d = deg n: the inverse square root of d where 0 < d, else 0. -/
theorem dv_apply (x1 : (⟨S2x1600000, .i32⟩ : BufTy).Contents (Elt Ideal)) (n : S100000.Idx) :
    val_main_v15 (F := Ideal) x1 n
      = Scalar.select (Ideal.cmp .ogt (val_main_v11 (F := Ideal) x1 n) 0)
          (Ideal.rsqrt (val_main_v11 (F := Ideal) x1 n)) 0 := by
  rw [val_main_v15_apply, val_main_v13_apply, val_main_v14_apply, val_main_v12_apply, val_main_cst_1_apply,
    val_main_call0_v1_apply, val_main_call0_v0_apply, val_main_cst_2_apply, zero_word]
  generalize val_main_v11 (F := Ideal) x1 n = d
  rfl

/-- Every dinv n is non-negative and not +∞: it is 0, or the inverse square root of a positive extended real. -/
theorem dv_ok (x1 : (⟨S2x1600000, .i32⟩ : BufTy).Contents (Elt Ideal)) :
    ∀ n, 0 ≤ val_main_v15 (F := Ideal) x1 n ∧ val_main_v15 (F := Ideal) x1 n ≠ ⊤ := by
  intro n
  rw [dv_apply]
  generalize val_main_v11 (F := Ideal) x1 n = d
  by_cases h : 0 < d
  · have hc : Ideal.cmp .ogt d 0 = 1#1 := by simp [Ideal.cmp, h]
    rw [hc, select_one]
    exact rsqrt_nonneg_ne_top h
  · have hc : Ideal.cmp .ogt d 0 = 0#1 := by simp [Ideal.cmp, h]
    rw [hc, select_zero]
    exact ⟨le_refl _, EReal.zero_ne_top⟩

/-! ## The target index as the second gather reads it -/

/-- A 32-bit word whose signed value is a natural number is not below zero in the signed order. -/
theorem slt_zero_of_toInt_eq (t : BitVec 32) (n : ℕ) (h : t.toInt = (n : Int)) : IntOp.cmpi .slt t 0#32 = 0#1 := by
  have hs : t.slt 0#32 = false := by
    rw [BitVec.slt, h]
    simp
  simp [IntOp.cmpi, hs]

/-- An edge whose target index, read signed, is the row number n: the wrapped target index (negative indices moved up by
    the number of nodes) is the same word, so its clamp into the node range is n. -/
theorem dw_ok (x1 : (⟨S2x1600000, .i32⟩ : BufTy).Contents (Elt Ideal)) :
    ∀ (e : Fin 1700000) (n : Fin 100000), startOf (val_main_v43 (F := Ideal) x1) e = (n.val : Int) →
      clampRow 100000 (val_main_v28 (F := Ideal) x1) e = n.val := by
  intro e n h
  refine clampRow_of_eq _ e n ?_
  unfold startOf at h ⊢
  rw [val_main_v43_apply] at h
  rw [val_main_v28_apply, val_main_v27_apply, val_main_v24_apply, val_main_v23_apply, val_main_c_4_apply]
  have hi : idx_main_v28 (ix2 e (0 : Fin 1)) = idx_main_v43 (ix2 e (0 : Fin 1)) := rfl
  rw [hi]
  generalize val_main_v7 (F := Ideal) x1 (idx_main_v43 (ix2 e (0 : Fin 1))) = t at h ⊢
  rw [slt_zero_of_toInt_eq t n.val h, select_zero]
  exact h

/-! ## The index arrays the three layers share -/

/-- The source indices, wrapped, are computed four times by the same operations: once for the gather of dinv and once
    for each layer's gather of feature rows. They are one array. -/
theorem si21 (x1 : (⟨S2x1600000, .i32⟩ : BufTy).Contents (Elt Ideal)) : val_main_v21 (F := Ideal) x1 = val_main_v37
    (F := Ideal) x1 := rfl
theorem si55 (x1 : (⟨S2x1600000, .i32⟩ : BufTy).Contents (Elt Ideal)) : val_main_v55 (F := Ideal) x1 = val_main_v37
    (F := Ideal) x1 := rfl
theorem si73 (x1 : (⟨S2x1600000, .i32⟩ : BufTy).Contents (Elt Ideal)) : val_main_v73 (F := Ideal) x1 = val_main_v37
    (F := Ideal) x1 := rfl
/-- The target indices as scattered are likewise one array for the three layers. -/
theorem di61 (x1 : (⟨S2x1600000, .i32⟩ : BufTy).Contents (Elt Ideal)) : val_main_v61 (F := Ideal) x1 = val_main_v43
    (F := Ideal) x1 := rfl
theorem di79 (x1 : (⟨S2x1600000, .i32⟩ : BufTy).Contents (Elt Ideal)) : val_main_v79 (F := Ideal) x1 = val_main_v43
    (F := Ideal) x1 := rfl

/-- The weight of edge e: dinv gathered at the source index of e times dinv gathered at its wrapped target index. -/
theorem norm_apply (x1 : (⟨S2x1600000, .i32⟩ : BufTy).Contents (Elt Ideal)) (e : Fin 1700000) :
    val_main_v30 (F := Ideal) x1 (ix1 e)
      = Host.gather (vecGather 100000 1700000 Gen.gather_S100000_S1700000x1_S1700000_n_0_n_n_0_1_1_wf)
          (val_main_v15 (F := Ideal) x1) (val_main_v37 (F := Ideal) x1) (ix1 e)
        * Host.gather (vecGather 100000 1700000 Gen.gather_S100000_S1700000x1_S1700000_n_0_n_n_0_1_1_wf)
            (val_main_v15 (F := Ideal) x1) (val_main_v28 (F := Ideal) x1) (ix1 e) := by
  rw [val_main_v30_apply]
  unfold val_main_v22 val_main_v29
  rw [si21]
  generalize val_main_v15 (F := Ideal) x1 = dv
  generalize val_main_v37 (F := Ideal) x1 = si
  generalize val_main_v28 (F := Ideal) x1 = dw
  rfl

/-! ## One layer, for any width -/

/-- A layer's output buffer is `layerOut` of the layer's input. The buffer is a scatter-add, into the array `z` of
    zeros and along the target indices, of the update `u`, plus the broadcast bias `bb`; the update's entry (e, c) is
    row (source of e) of the projected features `H = X · W` at column c, times the weight of edge e. By the layer law
    the sum of the messages landing on node n is the sum of the rows pre-scaled by dinv at their source, times dinv n. -/
theorem layer_eq {K C : ℕ}
    (wfS : ScatterDims.WF ⟨2, ![100000, C]⟩ ⟨2, ![1700000, 1]⟩ ⟨2, ![1700000, C]⟩ [1] [0] [0] 1)
    (wfG : GatherDims.WF ⟨2, ![100000, C]⟩ ⟨2, ![1700000, 1]⟩ ⟨2, ![1700000, C]⟩ [1] [0] [] [0] [] 1 ![1, C])
    (x1 : (⟨S2x1600000, .i32⟩ : BufTy).Contents (Elt Ideal))
    (X : (⟨2, ![100000, K]⟩ : Shape).Idx → EReal) (W : (⟨2, ![K, C]⟩ : Shape).Idx → EReal)
    (b : (⟨1, ![C]⟩ : Shape).Idx → EReal)
    (H z bb : (⟨2, ![100000, C]⟩ : Shape).Idx → EReal) (u : (⟨2, ![1700000, C]⟩ : Shape).Idx → EReal)
    (hH : ∀ i, H i = hmat X W i) (hz : ∀ i, z i = 0)
    (hu : ∀ j, u j = Host.gather (rowGather 100000 1700000 C wfG) H (val_main_v37 (F := Ideal) x1) j * val_main_v30 (F := Ideal) x1 (ix1 (j 0)))
    (hbb : ∀ i, bb i = b (ix1 (i 1)))
    (i : (⟨2, ![100000, C]⟩ : Shape).Idx) :
    Ideal.hostScatterAdd (rowScatter 100000 1700000 C wfS) z (val_main_v43 (F := Ideal) x1) u i + bb i
      = layerOut wfS wfG X W (val_main_v15 (F := Ideal) x1) (val_main_v37 (F := Ideal) x1)
          (val_main_v43 (F := Ideal) x1) b i := by
  obtain rfl : z = fun _ => 0 := funext hz
  obtain rfl : H = hmat X W := funext hH
  obtain rfl : u = fun j => Host.gather (rowGather 100000 1700000 C wfG) (hmat X W) (val_main_v37 (F := Ideal) x1) j
      * (Host.gather (vecGather 100000 1700000 Gen.gather_S100000_S1700000x1_S1700000_n_0_n_n_0_1_1_wf) (val_main_v15 (F := Ideal) x1) (val_main_v37 (F := Ideal) x1) (ix1 (j 0))
        * Host.gather (vecGather 100000 1700000 Gen.gather_S100000_S1700000x1_S1700000_n_0_n_n_0_1_1_wf)
            (val_main_v15 (F := Ideal) x1) (val_main_v28 (F := Ideal) x1) (ix1 (j 0))) :=
    funext fun j => (hu j).trans (congrArg
      (fun t => Host.gather (rowGather 100000 1700000 C wfG) (hmat X W) (val_main_v37 (F := Ideal) x1) j * t)
          (norm_apply x1 (j 0)))
  rw [agg_norm (by norm_num) wfS wfG Gen.gather_S100000_S1700000x1_S1700000_n_0_n_n_0_1_1_wf (hmat X W)
      (val_main_v15 (F := Ideal) x1) (val_main_v37 (F := Ideal) x1) (val_main_v43 (F := Ideal) x1)
      (val_main_v28 (F := Ideal) x1) (dv_ok x1) (dw_ok x1) i, hbb]
  generalize val_main_v15 (F := Ideal) x1 = dv
  generalize val_main_v37 (F := Ideal) x1 = si
  generalize val_main_v43 (F := Ideal) x1 = di
  rfl

/-- The printed dimension numbers of the 64-wide scatter-add are the row scatter's; at the extended reals the
    operation is the exact sum. -/
theorem scatterAdd64 (z : (⟨2, ![100000, 64]⟩ : Shape).Idx → EReal) (idx : IVec ⟨2, ![1700000, 1]⟩ 32)
    (u : (⟨2, ![1700000, 64]⟩ : Shape).Idx → EReal) :
    Host.scatterAdd (F := Ideal) (φ := .f32) scatter_S100000x64_S1700000x1_S1700000x64_1_0_0_1 z idx u
      = Ideal.hostScatterAdd (rowScatter 100000 1700000 64 Gen.scatter_S100000x64_S1700000x1_S1700000x64_1_0_0_1_wf)
          z idx u := rfl
/-- The same for the 24-wide one. -/
theorem scatterAdd24 (z : (⟨2, ![100000, 24]⟩ : Shape).Idx → EReal) (idx : IVec ⟨2, ![1700000, 1]⟩ 32)
    (u : (⟨2, ![1700000, 24]⟩ : Shape).Idx → EReal) :
    Host.scatterAdd (F := Ideal) (φ := .f32) scatter_S100000x24_S1700000x1_S1700000x24_1_0_0_1 z idx u
      = Ideal.hostScatterAdd (rowScatter 100000 1700000 24 Gen.scatter_S100000x24_S1700000x1_S1700000x24_1_0_0_1_wf)
          z idx u := rfl

/-- The positive part as the program computes it: the maximum with a broadcast zero. -/
theorem max_zero_eq_relu {s : Shape} (O : s.Idx → EReal) (i : s.Idx) : FloatOps.maximumf (F := Ideal) (φ := .f32)
    (O i) 0 = relu O i := rfl

/-! ## Layer 1 -/

theorem h1_apply (x0 : (⟨S100000x3, .f32⟩ : BufTy).Contents (Elt Ideal))
    (x3 : (⟨S3x64, .f32⟩ : BufTy).Contents (Elt Ideal)) (i : S100000x64.Idx) : val_main_v31 (F := Ideal) x0 x3 i =
    hmat x0 x3 i := by
  rw [val_main_v31_apply]
  show _ = ∑ k : Fin 3, x0 (ix2 (i 0) k) * x3 (ix2 k (i 1))
  refine Finset.sum_congr rfl fun k _ => ?_
  rw [Cert.Lib.at2_eq x0 (lidx_main_v31 i k), Cert.Lib.at2_eq x3 (ridx_main_v31 i k),
    Cert.Lib.at2_eq x0 (ix2 (i 0) k), Cert.Lib.at2_eq x3 (ix2 k (i 1))]
  rfl

theorem z1_apply (i : S100000x64.Idx) : val_main_v42 (F := Ideal) i = 0 := by
  rw [val_main_v42_apply, val_main_cst_8_apply, zero_word]

theorem u1_apply (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (j : S1700000x64.Idx) :
    val_main_v41 (F := Ideal) x0 x1 x3 j
      = Host.gather (rowGather 100000 1700000 64 Gen.gather_S100000x64_S1700000x1_S1700000x64_1_0_n_n_0_1_164_wf)
          (val_main_v31 (F := Ideal) x0 x3) (val_main_v37 (F := Ideal) x1) j
        * val_main_v30 (F := Ideal) x1 (ix1 (j 0)) := by
  rw [val_main_v41_apply, val_main_v40_apply, val_main_v39_apply,
    Cert.Lib.at1_eq (val_main_v30 (F := Ideal) x1) (idx_main_v39 (idx_main_v40 j)),
    Cert.Lib.at1_eq (val_main_v30 (F := Ideal) x1) (ix1 (j 0))]
  unfold val_main_v38
  generalize val_main_v31 (F := Ideal) x0 x3 = H
  generalize val_main_v37 (F := Ideal) x1 = si
  generalize val_main_v30 (F := Ideal) x1 = w
  rfl

theorem b1_apply (x4 : (⟨S64, .f32⟩ : BufTy).Contents (Elt Ideal)) (i : S100000x64.Idx) : val_main_v46 (F := Ideal)
    x4 i = x4 (ix1 (i 1)) := by
  rw [val_main_v46_apply, val_main_v45_apply, Cert.Lib.at1_eq x4 (idx_main_v45 (idx_main_v46 i)),
    Cert.Lib.at1_eq x4 (ix1 (i 1))]
  rfl

/-- The first layer's output. -/
theorem out1_eq (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) :
    val_main_v47 (F := Ideal) x0 x1 x3 x4 = layerOut Gen.scatter_S100000x64_S1700000x1_S1700000x64_1_0_0_1_wf
        Gen.gather_S100000x64_S1700000x1_S1700000x64_1_0_n_n_0_1_164_wf x0 x3 (val_main_v15 (F := Ideal) x1)
        (val_main_v37 (F := Ideal) x1) (val_main_v43 (F := Ideal) x1) x4 := by
  funext i
  rw [val_main_v47_apply, Ideal.addf_def]
  unfold val_main_v44
  rw [scatterAdd64]
  exact layer_eq Gen.scatter_S100000x64_S1700000x1_S1700000x64_1_0_0_1_wf
      Gen.gather_S100000x64_S1700000x1_S1700000x64_1_0_n_n_0_1_164_wf x1 x0 x3 x4 _ _ _ _ (h1_apply x0 x3) z1_apply
      (u1_apply x0 x1 x3) (b1_apply x4) i

/-- The activation between layers 1 and 2. -/
theorem act1_eq (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) :
    val_main_v48 (F := Ideal) x0 x1 x3 x4 = relu (layerOut Gen.scatter_S100000x64_S1700000x1_S1700000x64_1_0_0_1_wf
          Gen.gather_S100000x64_S1700000x1_S1700000x64_1_0_n_n_0_1_164_wf
          x0 x3 (val_main_v15 (F := Ideal) x1) (val_main_v37 (F := Ideal) x1) (val_main_v43 (F := Ideal) x1) x4) :=
              by
  rw [← out1_eq]
  funext i
  rw [val_main_v48_apply, val_main_call1_v0_apply, val_main_call1_cst_apply, zero_word]
  exact max_zero_eq_relu _ i

/-! ## Layer 2 -/

theorem h2_apply (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (i : S100000x64.Idx) :
    val_main_v49 (F := Ideal) x0 x1 x3 x4 x5 i = hmat (val_main_v48 (F := Ideal) x0 x1 x3 x4) x5 i := by
  rw [val_main_v49_apply]
  generalize val_main_v48 (F := Ideal) x0 x1 x3 x4 = Y
  show _ = ∑ k : Fin 64, Y (ix2 (i 0) k) * x5 (ix2 k (i 1))
  refine Finset.sum_congr rfl fun k _ => ?_
  rw [Cert.Lib.at2_eq Y (lidx_main_v49 i k), Cert.Lib.at2_eq x5 (ridx_main_v49 i k),
    Cert.Lib.at2_eq Y (ix2 (i 0) k), Cert.Lib.at2_eq x5 (ix2 k (i 1))]
  rfl

theorem z2_apply (i : S100000x64.Idx) : val_main_v60 (F := Ideal) i = 0 := by
  rw [val_main_v60_apply, val_main_cst_11_apply, zero_word]

theorem u2_apply (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (j : S1700000x64.Idx) :
    val_main_v59 (F := Ideal) x0 x1 x3 x4 x5 j
      = Host.gather (rowGather 100000 1700000 64 Gen.gather_S100000x64_S1700000x1_S1700000x64_1_0_n_n_0_1_164_wf)
          (val_main_v49 (F := Ideal) x0 x1 x3 x4 x5) (val_main_v37 (F := Ideal) x1) j
        * val_main_v30 (F := Ideal) x1 (ix1 (j 0)) := by
  rw [val_main_v59_apply, val_main_v58_apply, val_main_v57_apply,
    Cert.Lib.at1_eq (val_main_v30 (F := Ideal) x1) (idx_main_v57 (idx_main_v58 j)),
    Cert.Lib.at1_eq (val_main_v30 (F := Ideal) x1) (ix1 (j 0))]
  unfold val_main_v56
  rw [si55]
  generalize val_main_v49 (F := Ideal) x0 x1 x3 x4 x5 = H
  generalize val_main_v37 (F := Ideal) x1 = si
  generalize val_main_v30 (F := Ideal) x1 = w
  rfl

theorem b2_apply (x6 : (⟨S64, .f32⟩ : BufTy).Contents (Elt Ideal)) (i : S100000x64.Idx) : val_main_v64 (F := Ideal)
    x6 i = x6 (ix1 (i 1)) := by
  rw [val_main_v64_apply, val_main_v63_apply, Cert.Lib.at1_eq x6 (idx_main_v63 (idx_main_v64 i)),
    Cert.Lib.at1_eq x6 (ix1 (i 1))]
  rfl

/-- The second layer's output. -/
theorem out2_eq (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v65 (F := Ideal) x0 x1 x3 x4 x5 x6 = layerOut Gen.scatter_S100000x64_S1700000x1_S1700000x64_1_0_0_1_wf
        Gen.gather_S100000x64_S1700000x1_S1700000x64_1_0_n_n_0_1_164_wf
        (relu (layerOut Gen.scatter_S100000x64_S1700000x1_S1700000x64_1_0_0_1_wf
            Gen.gather_S100000x64_S1700000x1_S1700000x64_1_0_n_n_0_1_164_wf
            x0 x3 (val_main_v15 (F := Ideal) x1) (val_main_v37 (F := Ideal) x1) (val_main_v43 (F := Ideal) x1) x4))
        x5 (val_main_v15 (F := Ideal) x1) (val_main_v37 (F := Ideal) x1) (val_main_v43 (F := Ideal) x1) x6 := by
  rw [← act1_eq]
  funext i
  rw [val_main_v65_apply, Ideal.addf_def]
  unfold val_main_v62
  rw [scatterAdd64, di61]
  exact layer_eq Gen.scatter_S100000x64_S1700000x1_S1700000x64_1_0_0_1_wf
      Gen.gather_S100000x64_S1700000x1_S1700000x64_1_0_n_n_0_1_164_wf x1 (val_main_v48 (F := Ideal) x0 x1 x3 x4) x5
      x6 _ _ _ _ (h2_apply x0 x1 x3 x4 x5) z2_apply
    (u2_apply x0 x1 x3 x4 x5) (b2_apply x6) i

/-- The activation between layers 2 and 3. -/
theorem act2_eq (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v66 (F := Ideal) x0 x1 x3 x4 x5 x6 = relu
        (layerOut Gen.scatter_S100000x64_S1700000x1_S1700000x64_1_0_0_1_wf
          Gen.gather_S100000x64_S1700000x1_S1700000x64_1_0_n_n_0_1_164_wf
          (relu (layerOut Gen.scatter_S100000x64_S1700000x1_S1700000x64_1_0_0_1_wf
              Gen.gather_S100000x64_S1700000x1_S1700000x64_1_0_n_n_0_1_164_wf
              x0 x3 (val_main_v15 (F := Ideal) x1) (val_main_v37 (F := Ideal) x1) (val_main_v43 (F := Ideal) x1)
                  x4))
          x5 (val_main_v15 (F := Ideal) x1) (val_main_v37 (F := Ideal) x1) (val_main_v43 (F := Ideal) x1) x6) := by
  rw [← out2_eq]
  funext i
  rw [val_main_v66_apply, val_main_call2_v0_apply, val_main_call2_cst_apply, zero_word]
  exact max_zero_eq_relu _ i

/-! ## Layer 3 -/

theorem h3_apply (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x24, .f32⟩ : BufTy).Contents (Elt Ideal))
    (i : S100000x24.Idx) :
    val_main_v67 (F := Ideal) x0 x1 x3 x4 x5 x6 x7 i = hmat (val_main_v66 (F := Ideal) x0 x1 x3 x4 x5 x6) x7 i := by
  rw [val_main_v67_apply]
  generalize val_main_v66 (F := Ideal) x0 x1 x3 x4 x5 x6 = Y
  show _ = ∑ k : Fin 64, Y (ix2 (i 0) k) * x7 (ix2 k (i 1))
  refine Finset.sum_congr rfl fun k _ => ?_
  rw [Cert.Lib.at2_eq Y (lidx_main_v67 i k), Cert.Lib.at2_eq x7 (ridx_main_v67 i k),
    Cert.Lib.at2_eq Y (ix2 (i 0) k), Cert.Lib.at2_eq x7 (ix2 k (i 1))]
  rfl

theorem z3_apply (i : S100000x24.Idx) : val_main_v78 (F := Ideal) i = 0 := by
  rw [val_main_v78_apply, val_main_cst_14_apply, zero_word]

theorem u3_apply (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x24, .f32⟩ : BufTy).Contents (Elt Ideal))
    (j : S1700000x24.Idx) :
    val_main_v77 (F := Ideal) x0 x1 x3 x4 x5 x6 x7 j
      = Host.gather (rowGather 100000 1700000 24 Gen.gather_S100000x24_S1700000x1_S1700000x24_1_0_n_n_0_1_124_wf)
          (val_main_v67 (F := Ideal) x0 x1 x3 x4 x5 x6 x7) (val_main_v37 (F := Ideal) x1) j
        * val_main_v30 (F := Ideal) x1 (ix1 (j 0)) := by
  rw [val_main_v77_apply, val_main_v76_apply, val_main_v75_apply,
    Cert.Lib.at1_eq (val_main_v30 (F := Ideal) x1) (idx_main_v75 (idx_main_v76 j)),
    Cert.Lib.at1_eq (val_main_v30 (F := Ideal) x1) (ix1 (j 0))]
  unfold val_main_v74
  rw [si73]
  generalize val_main_v67 (F := Ideal) x0 x1 x3 x4 x5 x6 x7 = H
  generalize val_main_v37 (F := Ideal) x1 = si
  generalize val_main_v30 (F := Ideal) x1 = w
  rfl

theorem b3_apply (x8 : (⟨S24, .f32⟩ : BufTy).Contents (Elt Ideal)) (i : S100000x24.Idx) : val_main_v82 (F := Ideal)
    x8 i = x8 (ix1 (i 1)) := by
  rw [val_main_v82_apply, val_main_v81_apply, Cert.Lib.at1_eq x8 (idx_main_v81 (idx_main_v82 i)),
    Cert.Lib.at1_eq x8 (ix1 (i 1))]
  rfl

/-- The third layer's output: the node features the pooling reads. -/
theorem y_eq (x0 : (⟨S100000x3, .f32⟩ : BufTy).Contents (Elt Ideal))
    (x1 : (⟨S2x1600000, .i32⟩ : BufTy).Contents (Elt Ideal)) (x3 : (⟨S3x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x24, .f32⟩ : BufTy).Contents (Elt Ideal))
    (x8 : (⟨S24, .f32⟩ : BufTy).Contents (Elt Ideal)) :
    val_main_v83 (F := Ideal) x0 x1 x3 x4 x5 x6 x7 x8 = layerOut
        Gen.scatter_S100000x24_S1700000x1_S1700000x24_1_0_0_1_wf
        Gen.gather_S100000x24_S1700000x1_S1700000x24_1_0_n_n_0_1_124_wf
        (relu (layerOut Gen.scatter_S100000x64_S1700000x1_S1700000x64_1_0_0_1_wf
            Gen.gather_S100000x64_S1700000x1_S1700000x64_1_0_n_n_0_1_164_wf
            (relu (layerOut Gen.scatter_S100000x64_S1700000x1_S1700000x64_1_0_0_1_wf
                Gen.gather_S100000x64_S1700000x1_S1700000x64_1_0_n_n_0_1_164_wf
                x0 x3 (val_main_v15 (F := Ideal) x1) (val_main_v37 (F := Ideal) x1) (val_main_v43 (F := Ideal) x1)
                    x4))
            x5 (val_main_v15 (F := Ideal) x1) (val_main_v37 (F := Ideal) x1) (val_main_v43 (F := Ideal) x1) x6))
        x7 (val_main_v15 (F := Ideal) x1) (val_main_v37 (F := Ideal) x1) (val_main_v43 (F := Ideal) x1) x8 := by
  rw [← act2_eq]
  funext i
  rw [val_main_v83_apply, Ideal.addf_def]
  unfold val_main_v80
  rw [scatterAdd24, di79]
  exact layer_eq Gen.scatter_S100000x24_S1700000x1_S1700000x24_1_0_0_1_wf
      Gen.gather_S100000x24_S1700000x1_S1700000x24_1_0_n_n_0_1_124_wf x1
      (val_main_v66 (F := Ideal) x0 x1 x3 x4 x5 x6) x7 x8 _ _ _ _ (h3_apply x0 x1 x3 x4 x5 x6 x7) z3_apply
    (u3_apply x0 x1 x3 x4 x5 x6 x7) (b3_apply x8) i

end Cert.ReferenceIdeal.RefValue

end
-- ==== Proof.Assemble.lean ====
/-
  The five claims. The three frames are the generated frame certificates (the reference's is its run with the result
  dropped). The ideal pass rewrote nothing, so `preserves` is trivial. For `algebraic`: the idealized kernel ends at
  the pooling tail of its node outputs, which are the three layers with the target node's factor applied after each
  aggregation; the reference ends at the same tail of its node outputs, which are the three layers with the factor
  product applied per edge; by the layer law the two node outputs are one function of the arguments.
-/
import proofs.«150518_j66838281061050_2_alg».proof.Defs
import proofs.«150518_j66838281061050_2_alg».proof.Proof.Gen.Kernel.Frame
import proofs.«150518_j66838281061050_2_alg».proof.Proof.Gen.Pre_finite_inputs
import proofs.«150518_j66838281061050_2_alg».proof.Proof.KRun
import proofs.«150518_j66838281061050_2_alg».proof.Proof.KFold
import proofs.«150518_j66838281061050_2_alg».proof.Proof.RefValue

set_option maxRecDepth 16384

noncomputable section

namespace Cert.Proof.Assemble

open Idealize.ShloMosaic Idealize.ShloMosaic.TcCoe Idealize.SL.Sem

/-- The reference's result is the pooling tail of its node outputs and the graph ids: the same operations, in the same
    order, as the kernel's tail. -/
theorem tail_ref (x0 : (⟨Cert.ReferenceIdeal.S100000x3, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S3x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x24, .f32⟩ : BufTy).Contents (Elt Ideal)) (x8 : (⟨Cert.ReferenceIdeal.S24, .f32⟩ : BufTy).Contents (Elt Ideal)) :
    Cert.ReferenceIdeal.ReadP.val_main_v96 (F := Ideal) x0 x1 x2 x3 x4 x5 x6 x7 x8
      = Cert.KernelIdeal.Fold.tailK (Cert.ReferenceIdeal.ReadP.val_main_v83 (F := Ideal) x0 x1 x3 x4 x5 x6 x7 x8) x2 := by
  unfold Cert.ReferenceIdeal.ReadP.val_main_v96 Cert.ReferenceIdeal.ReadP.val_main_v95 Cert.ReferenceIdeal.ReadP.val_main_v86 Cert.KernelIdeal.Fold.tailK
  generalize Cert.ReferenceIdeal.ReadP.val_main_v83 (F := Ideal) x0 x1 x3 x4 x5 x6 x7 x8 = y
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.W11 m ρ c (Proc.devRef .tc Cert.KernelIdeal.main_v65),
    Cert.KernelIdeal.Run.run_main (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨a0, a1, a2, a3, a4, a5, a6, a7, a8⟩ := hagree c
  refine Eq.trans ?_ (Cert.KernelIdeal.Fold.result m ρ c).symm
  rw [Cert.ReferenceIdeal.ReadP.val_main_v96_eq, a0, a1, a2, a3, a4, a5, a6, a7, a8, tail_ref, Cert.ReferenceIdeal.RefValue.y_eq,
    Cert.KernelIdeal.Fold.yK_eq]

end Cert.Proof.Assemble

end
-- ==== Proof.lean ====
/-
  The certificate of the graph-convolution kernel against its reference, over the extended reals.

  Both programs compute three graph-convolution layers on 100000 nodes and 1700000 edges (the given edges plus one
  self loop per node), a per-graph mean and a tanh. With dv the inverse square root of a node's in-degree, a layer is
      out (n, c) = sum over the edges e into n of  h (source e, c) · (dv (source e) · dv (n))  +  b c,      h = x · W.
  The reference multiplies every edge message by the product of the two factors. The kernel multiplies the rows of h by
  dv before the edges are followed, sums, and multiplies row n of the sum by dv n afterwards. The two agree because the
  second factor is the same for every edge into n, and because a sum of extended reals times a factor that is
  non-negative and finite is the sum of the products (a degree is either positive, and then its inverse square root is
  a non-negative real, or the factor is the literal 0). No finiteness of the inputs is used.

  Modules: LibRows (rows moved by an index array; the sum law), Layer (the layer and the layer law), KSpec / KMatmul /
  KReg0 … KReg3 (what each kernel region leaves in its output array), KRun and KFold (the kernel's run and its result
  as a function of the launch memory), RefValue (the reference's node outputs in the layer's vocabulary), Assemble (the
  five claims).
-/
import proofs.«150518_j66838281061050_2_alg».proof.Defs
import proofs.«150518_j66838281061050_2_alg».proof.Proof.Gen.Kernel
import proofs.«150518_j66838281061050_2_alg».proof.Proof.Gen.Kernel.Skeleton
import proofs.«150518_j66838281061050_2_alg».proof.Proof.Gen.Kernel.Launch
import proofs.«150518_j66838281061050_2_alg».proof.Proof.Gen.Kernel.Points
import proofs.«150518_j66838281061050_2_alg».proof.Proof.Gen.Kernel.Frame
import proofs.«150518_j66838281061050_2_alg».proof.Proof.Gen.KernelIdeal
import proofs.«150518_j66838281061050_2_alg».proof.Proof.Gen.KernelIdeal.Skeleton
import proofs.«150518_j66838281061050_2_alg».proof.Proof.Gen.KernelIdeal.Launch
import proofs.«150518_j66838281061050_2_alg».proof.Proof.Gen.KernelIdeal.Points
import proofs.«150518_j66838281061050_2_alg».proof.Proof.Gen.KernelIdeal.Frame
import proofs.«150518_j66838281061050_2_alg».proof.Proof.Gen.ReferenceIdeal
import proofs.«150518_j66838281061050_2_alg».proof.Proof.RefRun
import proofs.«150518_j66838281061050_2_alg».proof.Proof.RefRead
import proofs.«150518_j66838281061050_2_alg».proof.Proof.Gen.Pre_finite_inputs
import proofs.«150518_j66838281061050_2_alg».proof.Proof.Assemble
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves, Assemble.algebraic⟩

end Cert.Proof

end
